-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32768x896 : S_.BroadcastsInDim S32768x896 (![] : Fin 0 → Fin S32768x896.rank)
  reducesTo_S32768x896_S_d0_1 : S32768x896.ReducesTo [0, 1] S_
  bcast_S_S32768x1 : S_.BroadcastsInDim S32768x1 (![] : Fin 0 → Fin S32768x1.rank)
  reducesTo_S32768x1_S_d0_1 : S32768x1.ReducesTo [0, 1] S_
  bcast_S_S896x2688 : S_.BroadcastsInDim S896x2688 (![] : Fin 0 → Fin S896x2688.rank)
  reducesTo_S896x2688_S_d0_1 : S896x2688.ReducesTo [0, 1] S_
  bcast_S_S2x1344 : S_.BroadcastsInDim S2x1344 (![] : Fin 0 → Fin S2x1344.rank)
  reducesTo_S2x1344_S_d0_1 : S2x1344.ReducesTo [0, 1] S_
  bcast_S_S3x1344 : S_.BroadcastsInDim S3x1344 (![] : Fin 0 → Fin S3x1344.rank)
  reducesTo_S3x1344_S_d0_1 : S3x1344.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S448x256 : S_.BroadcastsInDim S448x256 (![] : Fin 0 → Fin S448x256.rank)
  reducesTo_S448x256_S_d0_1 : S448x256.ReducesTo [0, 1] S_
  bcast_S_S256 : S_.BroadcastsInDim S256 (![] : Fin 0 → Fin S256.rank)
  reducesTo_S256_S_d0 : S256.ReducesTo [0] S_
  bcast_S_S896 : S_.BroadcastsInDim S896 (![] : Fin 0 → Fin S896.rank)
  reducesTo_S896_S_d0 : S896.ReducesTo [0] S_

variable [Facts]

def fn_part4 {F : FTy → Type} [FloatOps F] (main_arg14 : FVec F S896 .f32) (main_arg15 : FVec F S896 .f32) (main_arg16 : FVec F S896 .f32) (main_v63 : IVec S_ 1) (main_v67 : IVec S_ 1) : IVec S_ 1 :=
  let main_v68 : IVec S_ 1 := andi main_v63 main_v67
  let main_v69 : FVec F S896 .f32 := Host.absf main_arg14
  let main_cst_26 : FVec F S_ .f32 := constant S_ .f32 0x7F800000#32
  let main_v70 : FVec F S896 .f32 := broadcastInDim S896 ![] bcast_S_S896 main_cst_26
  let main_v71 : IVec S896 1 := cmpf .olt main_v69 main_v70
  let main_c_27 : IVec S_ 1 := constantI S_ 1 1#1
  let main_v72 : IVec S_ 1 := (fun x v => Host.reduce IntOp.andi x v reducesTo_S896_S_d0 h_S_) main_v71 main_c_27
  let main_v73 : IVec S_ 1 := andi main_v68 main_v72
  let main_v74 : FVec F S896 .f32 := Host.absf main_arg15
  let main_cst_28 : FVec F S_ .f32 := constant S_ .f32 0x7F800000#32
  let main_v75 : FVec F S896 .f32 := broadcastInDim S896 ![] bcast_S_S896 main_cst_28
  let main_v76 : IVec S896 1 := cmpf .olt main_v74 main_v75
  let main_c_29 : IVec S_ 1 := constantI S_ 1 1#1
  let main_v77 : IVec S_ 1 := (fun x v => Host.reduce IntOp.andi x v reducesTo_S896_S_d0 h_S_) main_v76 main_c_29
  let main_v78 : IVec S_ 1 := andi main_v73 main_v77
  let main_v79 : FVec F S896 .f32 := Host.absf main_arg16
  let main_cst_30 : FVec F S_ .f32 := constant S_ .f32 0x7F800000#32
  let main_v80 : FVec F S896 .f32 := broadcastInDim S896 ![] bcast_S_S896 main_cst_30
  let main_v81 : IVec S896 1 := cmpf .olt main_v79 main_v80
  let main_c_31 : IVec S_ 1 := constantI S_ 1 1#1
  let main_v82 : IVec S_ 1 := (fun x v => Host.reduce IntOp.andi x v reducesTo_S896_S_d0 h_S_) main_v81 main_c_31
  let main_v83 : IVec S_ 1 := andi main_v78 main_v82
  main_v83

def fn_part3 {F : FTy → Type} [FloatOps F] (main_arg11 : FVec F S448 .f32) (main_arg12 : FVec F S448x256 .f32) (main_arg13 : FVec F S256 .f32) (main_arg14 : FVec F S896 .f32) (main_arg15 : FVec F S896 .f32) (main_arg16 : FVec F S896 .f32) (main_v48 : IVec S_ 1) (main_v49 : FVec F S448x448 .f32) (main_v50 : FVec F S448x448 .f32) : IVec S_ 1 :=
  let main_v51 : IVec S448x448 1 := cmpf .olt main_v49 main_v50
  let main_c_19 : IVec S_ 1 := constantI S_ 1 1#1
  let main_v52 : IVec S_ 1 := (fun x v => Host.reduce IntOp.andi x v reducesTo_S448x448_S_d0_1 h_S_) main_v51 main_c_19
  let main_v53 : IVec S_ 1 := andi main_v48 main_v52
  let main_v54 : FVec F S448 .f32 := Host.absf main_arg11
  let main_cst_20 : FVec F S_ .f32 := constant S_ .f32 0x7F800000#32
  let main_v55 : FVec F S448 .f32 := broadcastInDim S448 ![] bcast_S_S448 main_cst_20
  let main_v56 : IVec S448 1 := cmpf .olt main_v54 main_v55
  let main_c_21 : IVec S_ 1 := constantI S_ 1 1#1
  let main_v57 : IVec S_ 1 := (fun x v => Host.reduce IntOp.andi x v reducesTo_S448_S_d0 h_S_) main_v56 main_c_21
  let main_v58 : IVec S_ 1 := andi main_v53 main_v57
  let main_v59 : FVec F S448x256 .f32 := Host.absf main_arg12
  let main_cst_22 : FVec F S_ .f32 := constant S_ .f32 0x7F800000#32
  let main_v60 : FVec F S448x256 .f32 := broadcastInDim S448x256 ![] bcast_S_S448x256 main_cst_22
  let main_v61 : IVec S448x256 1 := cmpf .olt main_v59 main_v60
  let main_c_23 : IVec S_ 1 := constantI S_ 1 1#1
  let main_v62 : IVec S_ 1 := (fun x v => Host.reduce IntOp.andi x v reducesTo_S448x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_v63 main_v67

def fn_part2 {F : FTy → Type} [FloatOps F] (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) (main_v33 : IVec S_ 1) : IVec S_ 1 :=
  let main_v34 : FVec F S448 .f32 := Host.absf main_arg7
  let main_cst_12 : FVec F S_ .f32 := constant S_ .f32 0x7F800000#32
  let main_v35 : FVec F S448 .f32 := broadcastInDim S448 ![] bcast_S_S448 main_cst_12
  let main_v36 : IVec S448 1 := cmpf .olt main_v34 main_v35
  let main_c_13 : IVec S_ 1 := constantI S_ 1 1#1
  let main_v37 : IVec S_ 1 := (fun x v => Host.reduce IntOp.andi x v reducesTo_S448_S_d0 h_S_) main_v36 main_c_13
  let main_v38 : IVec S_ 1 := andi main_v33 main_v37
  let main_v39 : FVec F S448x256 .f32 := Host.absf main_arg8
  let main_cst_14 : FVec F S_ .f32 := constant S_ .f32 0x7F800000#32
  let main_v40 : FVec F S448x256 .f32 := broadcastInDim S448x256 ![] bcast_S_S448x256 main_cst_14
  let main_v41 : IVec S448x256 1 := cmpf .olt main_v39 main_v40
  let main_c_15 : IVec S_ 1 := constantI S_ 1 1#1
  let main_v42 : IVec S_ 1 := (fun x v => Host.reduce IntOp.andi x v reducesTo_S448x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S448x448 .f32 := Host.absf main_arg10
  let main_cst_18 : FVec F S_ .f32 := constant S_ .f32 0x7F800000#32
  let main_v50 : FVec F S448x448 .f32 := broadcastInDim S448x448 ![] bcast_S_S448x448 main_cst_18
  fn_part3 (F := F) main_arg11 main_arg12 main_arg13 main_arg14 main_arg15 main_arg16 main_v48 main_v49 main_v50

def fn_part1 {F : FTy → Type} [FloatOps F] (main_arg4 : FVec F S2x1344 .f32) (main_arg5 : FVec F S3x1344 .f32) (main_arg6 : FVec F S448x448 .f32) (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) (main_v13 : IVec S_ 1) (main_v16 : IVec S896x2688 1) : IVec S_ 1 :=
  let main_c_5 : IVec S_ 1 := constantI S_ 1 1#1
  let main_v17 : IVec S_ 1 := (fun x v => Host.reduce IntOp.andi x v reducesTo_S896x2688_S_d0_1 h_S_) main_v16 main_c_5
  let main_v18 : IVec S_ 1 := andi main_v13 main_v17
  let main_v19 : FVec F S2x1344 .f32 := Host.absf main_arg4
  let main_cst_6 : FVec F S_ .f32 := constant S_ .f32 0x7F800000#32
  let main_v20 : FVec F S2x1344 .f32 := broadcastInDim S2x1344 ![] bcast_S_S2x1344 main_cst_6
  let main_v21 : IVec S2x1344 1 := cmpf .olt main_v19 main_v20
  let main_c_7 : IVec S_ 1 := constantI S_ 1 1#1
  let main_v22 : IVec S_ 1 := (fun x v => Host.reduce IntOp.andi x v reducesTo_S2x1344_S_d0_1 h_S_) main_v21 main_c_7
  let main_v23 : IVec S_ 1 := andi main_v18 main_v22
  let main_v24 : FVec F S3x1344 .f32 := Host.absf main_arg5
  let main_cst_8 : FVec F S_ .f32 := constant S_ .f32 0x7F800000#32
  let main_v25 : FVec F S3x1344 .f32 := broadcastInDim S3x1344 ![] bcast_S_S3x1344 main_cst_8
  let main_v26 : IVec S3x1344 1 := cmpf .olt main_v24 main_v25
  let main_c_9 : IVec S_ 1 := constantI S_ 1 1#1
  let main_v27 : IVec S_ 1 := (fun x v => Host.reduce IntOp.andi x v reducesTo_S3x1344_S_d0_1 h_S_) main_v26 main_c_9
  let main_v28 : IVec S_ 1 := andi main_v23 main_v27
  let main_v29 : FVec F S448x448 .f32 := Host.absf main_arg6
  let main_cst_10 : FVec F S_ .f32 := constant S_ .f32 0x7F800000#32
  let main_v30 : FVec F S448x448 .f32 := broadcastInDim S448x448 ![] bcast_S_S448x448 main_cst_10
  let main_v31 : IVec S448x448 1 := cmpf .olt main_v29 main_v30
  let main_c_11 : IVec S_ 1 := constantI S_ 1 1#1
  let main_v32 : IVec S_ 1 := (fun x v => Host.reduce IntOp.andi x v reducesTo_S448x448_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32768x2 .f32) (main_arg1 : FVec F S32768x896 .f32) (main_arg2 : FVec F S32768x1 .f32) (main_arg3 : FVec F S896x2688 .f32) (main_arg4 : FVec F S2x1344 .f32) (main_arg5 : FVec F S3x1344 .f32) (main_arg6 : FVec F S448x448 .f32) (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32768x896 .f32 := Host.absf main_arg1
  let main_cst_0 : FVec F S_ .f32 := constant S_ .f32 0x7F800000#32
  let main_v5 : FVec F S32768x896 .f32 := broadcastInDim S32768x896 ![] bcast_S_S32768x896 main_cst_0
  let main_v6 : IVec S32768x896 1 := cmpf .olt main_v4 main_v5
  let main_c_1 : IVec S_ 1 := constantI S_ 1 1#1
  let main_v7 : IVec S_ 1 := (fun x v => Host.reduce IntOp.andi x v reducesTo_S32768x896_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S896x2688 .f32 := Host.absf main_arg3
  let main_cst_4 : FVec F S_ .f32 := constant S_ .f32 0x7F800000#32
  let main_v15 : FVec F S896x2688 .f32 := broadcastInDim S896x2688 ![] bcast_S_S896x2688 main_cst_4
  let main_v16 : IVec S896x2688 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S1x896 : Shape := ⟨2, ![1, 896]⟩
abbrev S1x448 : Shape := ⟨2, ![1, 448]⟩
abbrev S1x256 : Shape := ⟨2, ![1, 256]⟩
abbrev S32768x256 : Shape := ⟨2, ![32768, 256]⟩
abbrev S256x2 : Shape := ⟨2, ![256, 2]⟩
abbrev S256x896 : Shape := ⟨2, ![256, 896]⟩
abbrev S256x1 : Shape := ⟨2, ![256, 1]⟩
abbrev S256x256 : Shape := ⟨2, ![256, 256]⟩
abbrev S256x2688 : Shape := ⟨2, ![256, 2688]⟩
abbrev S256x1344 : Shape := ⟨2, ![256, 1344]⟩
abbrev S256x448 : Shape := ⟨2, ![256, 448]⟩
abbrev S256x3 : Shape := ⟨2, ![256, 3]⟩

abbrev nBuf : Space → Nat
  | .hbm => 34
  | .vmem => 26
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S448x448, .f32⟩
  | .hbm, ⟨7, _⟩ => ⟨S448, .f32⟩
  | .hbm, ⟨8, _⟩ => ⟨S448x256, .f32⟩
  | .hbm, ⟨9, _⟩ => ⟨S256, .f32⟩
  | .hbm, ⟨10, _⟩ => ⟨S448x448, .f32⟩
  | .hbm, ⟨11, _⟩ => ⟨S448, .f32⟩
  | .hbm, ⟨12, _⟩ => ⟨S448x256, .f32⟩
  | .hbm, ⟨13, _⟩ => ⟨S256, .f32⟩
  | .hbm, ⟨14, _⟩ => ⟨S896, .f32⟩
  | .hbm, ⟨15, _⟩ => ⟨S896, .f32⟩
  | .hbm, ⟨16, _⟩ => ⟨S896, .f32⟩
  | .hbm, ⟨17, _⟩ => ⟨S1x896, .f32⟩
  | .hbm, ⟨18, _⟩ => ⟨S1x896, .f32⟩
  | .hbm, ⟨19, _⟩ => ⟨S1x896, .f32⟩
  | .hbm, ⟨20, _⟩ => ⟨S1x448, .f32⟩
  | .hbm, ⟨21, _⟩ => ⟨S1x256, .f32⟩
  | .hbm, ⟨22, _⟩ => ⟨S1x448, .f32⟩
  | .hbm, ⟨23, _⟩ => ⟨S1x256, .f32⟩
  | .hbm, ⟨24, _⟩ => ⟨S896x2688, .bf16⟩
  | .hbm, ⟨25, _⟩ => ⟨S2x1344, .bf16⟩
  | .hbm, ⟨26, _⟩ => ⟨S3x1344, .bf16⟩
  | .hbm, ⟨27, _⟩ => ⟨S448x448, .bf16⟩
  | .hbm, ⟨28, _⟩ => ⟨S448x256, .bf16⟩
  | .hbm, ⟨29, _⟩ => ⟨S448x448, .bf16⟩
  | .hbm, ⟨30, _⟩ => ⟨S448x256, .bf16⟩
  | .hbm, ⟨31, _⟩ => ⟨S32768x256, .f32⟩
  | .hbm, ⟨32, _⟩ => ⟨S32768x256, .f32⟩
  | .hbm, ⟨33, _⟩ => ⟨S32768x896, .f32⟩
  | .local _ .vmem, ⟨0, _⟩ => ⟨S256x2, .f32⟩
  | .local _ .vmem, ⟨1, _⟩ => ⟨S256x2, .f32⟩
  | .local _ .vmem, ⟨2, _⟩ => ⟨S256x896, .f32⟩
  | .local _ .vmem, ⟨3, _⟩ => ⟨S256x896, .f32⟩
  | .local _ .vmem, ⟨4, _⟩ => ⟨S256x1, .f32⟩
  | .local _ .vmem, ⟨5, _⟩ => ⟨S256x1, .f32⟩
  | .local _ .vmem, ⟨6, _⟩ => ⟨S896x2688, .bf16⟩
  | .local _ .vmem, ⟨7, _⟩ => ⟨S2x1344, .bf16⟩
  | .local _ .vmem, ⟨8, _⟩ => ⟨S3x1344, .bf16⟩
  | .local _ .vmem, ⟨9, _⟩ => ⟨S448x448, .bf16⟩
  | .local _ .vmem, ⟨10, _⟩ => ⟨S1x448, .f32⟩
  | .local _ .vmem, ⟨11, _⟩ => ⟨S448x256, .bf16⟩
  | .local _ .vmem, ⟨12, _⟩ => ⟨S1x256, .f32⟩
  | .local _ .vmem, ⟨13, _⟩ => ⟨S448x448, .bf16⟩
  | .local _ .vmem, ⟨14, _⟩ => ⟨S1x448, .f32⟩
  | .local _ .vmem, ⟨15, _⟩ => ⟨S448x256, .bf16⟩
  | .local _ .vmem, ⟨16, _⟩ => ⟨S1x256, .f32⟩
  | .local _ .vmem, ⟨17, _⟩ => ⟨S1x896, .f32⟩
  | .local _ .vmem, ⟨18, _⟩ => ⟨S1x896, .f32⟩
  | .local _ .vmem, ⟨19, _⟩ => ⟨S1x896, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x896, .f32⟩
  | .local _ .vmem, ⟨25, _⟩ => ⟨S256x896, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1344 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1344 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S448x448 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x448 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S448x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S448x448 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x448 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S448x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x896 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x896 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x896 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x896 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S896_S1x896 : S896.ShapeCasts S1x896
  shapeCasts_S448_S1x448 : S448.ShapeCasts S1x448
  shapeCasts_S256_S1x256 : S256.ShapeCasts S1x256
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  inb_S256x896_S256x896_0_0 : ∀ a, (![0, 0] : Fin 2 → Nat) a + S256x896.size a ≤ S256x896.size a
  h_S256x896 : 0 < S256x896.numel
  inb_S256x1_S256x1_0_0 : ∀ a, (![0, 0] : Fin 2 → Nat) a + S256x1.size a ≤ S256x1.size a
  h_S256x1 : 0 < S256x1.numel
  inb_S896x2688_S896x2688_0_0 : ∀ a, (![0, 0] : Fin 2 → Nat) a + S896x2688.size a ≤ S896x2688.size a
  h_S896x2688 : 0 < S896x2688.numel
  shapeCasts_S896x2688_S896x2688 : S896x2688.ShapeCasts S896x2688
  slices_S256x2688_o0_0_S256x896 : S256x2688.Slices ![0, 0] S256x896
  slices_S256x2688_o0_896_S256x896 : S256x2688.Slices ![0, 896] S256x896
  slices_S256x2688_o0_1792_S256x896 : S256x2688.Slices ![0, 1792] S256x896
  inb_S2x1344_S2x1344_0_0 : ∀ a, (![0, 0] : Fin 2 → Nat) a + S2x1344.size a ≤ S2x1344.size a
  h_S2x1344 : 0 < S2x1344.numel
  shapeCasts_S2x1344_S2x1344 : S2x1344.ShapeCasts S2x1344
  slices_S256x1344_o0_0_S256x448 : S256x1344.Slices ![0, 0] S256x448
  slices_S256x1344_o0_448_S256x448 : S256x1344.Slices ![0, 448] S256x448
  slices_S256x1344_o0_896_S256x448 : S256x1344.Slices ![0, 896] S256x448
  concatenates_S256x2_S256x1_S256x3_d1 : Shape.Concatenates [S256x2, S256x1] S256x3 1
  inb_S3x1344_S3x1344_0_0 : ∀ a, (![0, 0] : Fin 2 → Nat) a + S3x1344.size a ≤ S3x1344.size a
  h_S3x1344 : 0 < S3x1344.numel
  shapeCasts_S3x1344_S3x1344 : S3x1344.ShapeCasts S3x1344
  concatenates_S256x448_S256x448_S256x896_d1 : Shape.Concatenates [S256x448, S256x448] S256x896 1
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S256x896 : S1x896.Broadcasts S256x896
  slices_S256x896_o0_0_S256x448 : S256x896.Slices ![0, 0] S256x448
  slices_S256x896_o0_448_S256x448 : S256x896.Slices ![0, 448] S256x448
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S256x448 : S1x448.Broadcasts S256x448
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x896_S896x2688_S256x2688_1_0_0_1_n_n_wf : DotDims.WF S256x896 S896x2688 S256x2688 [1] [0] [0] [1] [] []
  dot_S256x2_S2x1344_S256x1344_1_0_0_1_n_n_wf : DotDims.WF S256x2 S2x1344 S256x1344 [1] [0] [0] [1] [] []
  dot_S256x3_S3x1344_S256x1344_1_0_0_1_n_n_wf : DotDims.WF S256x3 S3x1344 S256x1344 [1] [0] [0] [1] [] []
  dot_S256x448_S448x448_S256x448_1_0_0_1_n_n_wf : DotDims.WF S256x448 S448x448 S256x448 [1] [0] [0] [1] [] []
  dot_S256x448_S448x256_S256x256_1_0_0_1_n_n_wf : DotDims.WF S256x448 S448x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S32768x2.size a
  hwx0_0 : ∀ i : grid0.Coords, EltTy.bits .f32 = 32 ∨ (Rect.block (s := S32768x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x896.size a ≤ S32768x896.size a
  hwx0_1 : ∀ i : grid0.Coords, EltTy.bits .f32 = 32 ∨ (Rect.block (s := S32768x896) S256x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S32768x1.size a
  hwx0_2 : ∀ i : grid0.Coords, EltTy.bits .f32 = 32 ∨ (Rect.block (s := S32768x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x2688.size a ≤ S896x2688.size a
  hwx0_3 : ∀ i : grid0.Coords, EltTy.bits .bf16 = 32 ∨ (Rect.block (s := S896x2688) S896x2688.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1344.size a ≤ S2x1344.size a
  hwx0_4 : ∀ i : grid0.Coords, EltTy.bits .bf16 = 32 ∨ (Rect.block (s := S2x1344) S2x1344.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1344.size a ≤ S3x1344.size a
  hwx0_5 : ∀ i : grid0.Coords, EltTy.bits .bf16 = 32 ∨ (Rect.block (s := S3x1344) S3x1344.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S448x448.size a ≤ S448x448.size a
  hwx0_6 : ∀ i : grid0.Coords, EltTy.bits .bf16 = 32 ∨ (Rect.block (s := S448x448) S448x448.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x448.size a ≤ S1x448.size a
  hwx0_7 : ∀ i : grid0.Coords, EltTy.bits .f32 = 32 ∨ (Rect.block (s := S1x448) S1x448.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S448x256.size a ≤ S448x256.size a
  hwx0_8 : ∀ i : grid0.Coords, EltTy.bits .bf16 = 32 ∨ (Rect.block (s := S448x256) S448x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S448x448.size a ≤ S448x448.size a
  hwx0_10 : ∀ i : grid0.Coords, EltTy.bits .bf16 = 32 ∨ (Rect.block (s := S448x448) S448x448.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x448.size a ≤ S1x448.size a
  hwx0_11 : ∀ i : grid0.Coords, EltTy.bits .f32 = 32 ∨ (Rect.block (s := S1x448) S1x448.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S448x256.size a ≤ S448x256.size a
  hwx0_12 : ∀ i : grid0.Coords, EltTy.bits .bf16 = 32 ∨ (Rect.block (s := S448x256) S448x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x896.size a ≤ S1x896.size a
  hwx0_14 : ∀ i : grid0.Coords, EltTy.bits .f32 = 32 ∨ (Rect.block (s := S1x896) S1x896.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x896.size a ≤ S1x896.size a
  hwx0_15 : ∀ i : grid0.Coords, EltTy.bits .f32 = 32 ∨ (Rect.block (s := S1x896) S1x896.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x896.size a ≤ S1x896.size a
  hwx0_16 : ∀ i : grid0.Coords, EltTy.bits .f32 = 32 ∨ (Rect.block (s := S1x896) S1x896.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S32768x256.size a
  hwx0_17 : ∀ i : grid0.Coords, EltTy.bits .f32 = 32 ∨ (Rect.block (s := S32768x256) S256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S32768x256.size a
  hwx0_18 : ∀ i : grid0.Coords, EltTy.bits .f32 = 32 ∨ (Rect.block (s := S32768x256) S256x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x896.size a ≤ S32768x896.size a
  hwx0_19 : ∀ i : grid0.Coords, EltTy.bits .f32 = 32 ∨ (Rect.block (s := S32768x896) S256x896.size (cc0_transform_19 i) (hinb0_19 i)).WholeWords (EltTy.packing .f32)

variable [Facts₀]

def dot_S256x896_S896x2688_S256x2688_1_0_0_1_n_n : DotDims S256x896 S896x2688 S256x2688 where
  lhsContracting := [1]
  rhsContracting := [0]
  lhsNonContracting := [0]
  rhsNonContracting := [1]
  lhsBatch := []
  rhsBatch := []
  wf := dot_S256x896_S896x2688_S256x2688_1_0_0_1_n_n_wf
def dot_S256x2_S2x1344_S256x1344_1_0_0_1_n_n : DotDims S256x2 S2x1344 S256x1344 where
  lhsContracting := [1]
  rhsContracting := [0]
  lhsNonContracting := [0]
  rhsNonContracting := [1]
  lhsBatch := []
  rhsBatch := []
  wf := dot_S256x2_S2x1344_S256x1344_1_0_0_1_n_n_wf
def dot_S256x3_S3x1344_S256x1344_1_0_0_1_n_n : DotDims S256x3 S3x1344 S256x1344 where
  lhsContracting := [1]
  rhsContracting := [0]
  lhsNonContracting := [0]
  rhsNonContracting := [1]
  lhsBatch := []
  rhsBatch := []
  wf := dot_S256x3_S3x1344_S256x1344_1_0_0_1_n_n_wf
def dot_S256x448_S448x448_S256x448_1_0_0_1_n_n : DotDims S256x448 S448x448 S256x448 where
  lhsContracting := [1]
  rhsContracting := [0]
  lhsNonContracting := [0]
  rhsNonContracting := [1]
  lhsBatch := []
  rhsBatch := []
  wf := dot_S256x448_S448x448_S256x448_1_0_0_1_n_n_wf
def dot_S256x448_S448x256_S256x256_1_0_0_1_n_n : DotDims S256x448 S448x256 S256x256 where
  lhsContracting := [1]
  rhsContracting := [0]
  lhsNonContracting := [0]
  rhsNonContracting := [1]
  lhsBatch := []
  rhsBatch := []
  wf := dot_S256x448_S448x256_S256x256_1_0_0_1_n_n_wf

abbrev win0_0 : Pipeline.Window sig grid0 :=
  Pipeline.Window.ofSpec (Memref.whole main_arg0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S896x2688.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2x1344.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3x1344.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S448x448.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x448.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S448x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S448x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x448.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S448x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1x896.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1) S1x896.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v2) S1x896.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14_0) S256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v14_1) S256x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_2) S256x896.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S32768x2688 : Shape := ⟨2, ![32768, 2688]⟩
abbrev S32768x1344 : Shape := ⟨2, ![32768, 1344]⟩
abbrev S32768x448 : Shape := ⟨2, ![32768, 448]⟩
abbrev S32768x3 : Shape := ⟨2, ![32768, 3]⟩
abbrev S1x896 : Shape := ⟨2, ![1, 896]⟩
abbrev S_ : Shape := ⟨0, ![]⟩
abbrev S1x448 : Shape := ⟨2, ![1, 448]⟩
abbrev S32768x256 : Shape := ⟨2, ![32768, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S448x448, .f32⟩
  | .hbm, ⟨7, _⟩ => ⟨S448, .f32⟩
  | .hbm, ⟨8, _⟩ => ⟨S448x256, .f32⟩
  | .hbm, ⟨9, _⟩ => ⟨S256, .f32⟩
  | .hbm, ⟨10, _⟩ => ⟨S448x448, .f32⟩
  | .hbm, ⟨11, _⟩ => ⟨S448, .f32⟩
  | .hbm, ⟨12, _⟩ => ⟨S448x256, .f32⟩
  | .hbm, ⟨13, _⟩ => ⟨S256, .f32⟩
  | .hbm, ⟨14, _⟩ => ⟨S896, .f32⟩
  | .hbm, ⟨15, _⟩ => ⟨S896, .f32⟩
  | .hbm, ⟨16, _⟩ => ⟨S896, .f32⟩
  | .hbm, ⟨17, _⟩ => ⟨S32768x2688, .f32⟩
  | .hbm, ⟨18, _⟩ => ⟨S32768x896, .f32⟩
  | .hbm, ⟨19, _⟩ => ⟨S32768x896, .f32⟩
  | .hbm, ⟨20, _⟩ => ⟨S32768x896, .f32⟩
  | .hbm, ⟨21, _⟩ => ⟨S32768x1344, .f32⟩
  | .hbm, ⟨22, _⟩ => ⟨S32768x448, .f32⟩
  | .hbm, ⟨23, _⟩ => ⟨S32768x448, .f32⟩
  | .hbm, ⟨24, _⟩ => ⟨S32768x448, .f32⟩
  | .hbm, ⟨25, _⟩ => ⟨S32768x3, .f32⟩
  | .hbm, ⟨26, _⟩ => ⟨S32768x1344, .f32⟩
  | .hbm, ⟨27, _⟩ => ⟨S32768x448, .f32⟩
  | .hbm, ⟨28, _⟩ => ⟨S32768x448, .f32⟩
  | .hbm, ⟨29, _⟩ => ⟨S32768x448, .f32⟩
  | .hbm, ⟨30, _⟩ => ⟨S32768x896, .f32⟩
  | .hbm, ⟨31, _⟩ => ⟨S32768x896, .f32⟩
  | .hbm, ⟨32, _⟩ => ⟨S32768x896, .f32⟩
  | .hbm, ⟨33, _⟩ => ⟨S32768x896, .f32⟩
  | .hbm, ⟨34, _⟩ => ⟨S1x896, .f32⟩
  | .hbm, ⟨35, _⟩ => ⟨S32768x896, .f32⟩
  | .hbm, ⟨36, _⟩ => ⟨S32768x896, .f32⟩
  | .hbm, ⟨37, _⟩ => ⟨S32768x896, .f32⟩
  | .hbm, ⟨38, _⟩ => ⟨S32768x896, .f32⟩
  | .hbm, ⟨39, _⟩ => ⟨S_, .f32⟩
  | .hbm, ⟨40, _⟩ => ⟨S32768x896, .f32⟩
  | .hbm, ⟨41, _⟩ => ⟨S32768x896, .f32⟩
  | .hbm, ⟨42, _⟩ => ⟨S_, .f32⟩
  | .hbm, ⟨43, _⟩ => ⟨S32768x896, .f32⟩
  | .hbm, ⟨44, _⟩ => ⟨S32768x896, .f32⟩
  | .hbm, ⟨45, _⟩ => ⟨S32768x896, .f32⟩
  | .hbm, ⟨46, _⟩ => ⟨S1x896, .f32⟩
  | .hbm, ⟨47, _⟩ => ⟨S32768x896, .f32⟩
  | .hbm, ⟨48, _⟩ => ⟨S32768x896, .f32⟩
  | .hbm, ⟨49, _⟩ => ⟨S32768x896, .f32⟩
  | .hbm, ⟨50, _⟩ => ⟨S32768x896, .f32⟩
  | .hbm, ⟨51, _⟩ => ⟨S_, .f32⟩
  | .hbm, ⟨52, _⟩ => ⟨S32768x896, .f32⟩
  | .hbm, ⟨53, _⟩ => ⟨S32768x896, .f32⟩
  | .hbm, ⟨54, _⟩ => ⟨S_, .f32⟩
  | .hbm, ⟨55, _⟩ => ⟨S32768x896, .f32⟩
  | .hbm, ⟨56, _⟩ => ⟨S32768x896, .f32⟩
  | .hbm, ⟨57, _⟩ => ⟨S32768x896, .f32⟩
  | .hbm, ⟨58, _⟩ => ⟨S32768x896, .f32⟩
  | .hbm, ⟨59, _⟩ => ⟨S1x896, .f32⟩
  | .hbm, ⟨60, _⟩ => ⟨S32768x896, .f32⟩
  | .hbm, ⟨61, _⟩ => ⟨S32768x896, .f32⟩
  | .hbm, ⟨62, _⟩ => ⟨S32768x896, .f32⟩
  | .hbm, ⟨63, _⟩ => ⟨S32768x896, .f32⟩
  | .hbm, ⟨64, _⟩ => ⟨S_, .f32⟩
  | .hbm, ⟨65, _⟩ => ⟨S32768x896, .f32⟩
  | .hbm, ⟨66, _⟩ => ⟨S32768x896, .f32⟩
  | .hbm, ⟨67, _⟩ => ⟨S32768x896, .f32⟩
  | .hbm, ⟨68, _⟩ => ⟨S32768x896, .f32⟩
  | .hbm, ⟨69, _⟩ => ⟨S32768x448, .f32⟩
  | .hbm, ⟨70, _⟩ => ⟨S32768x448, .f32⟩
  | .hbm, ⟨71, _⟩ => ⟨S32768x448, .f32⟩
  | .hbm, ⟨72, _⟩ => ⟨S1x448, .f32⟩
  | .hbm, ⟨73, _⟩ => ⟨S32768x448, .f32⟩
  | .hbm, ⟨74, _⟩ => ⟨S32768x448, .f32⟩
  | .hbm, ⟨75, _⟩ => ⟨S_, .f32⟩
  | .hbm, ⟨76, _⟩ => ⟨S32768x448, .f32⟩
  | .hbm, ⟨77, _⟩ => ⟨S32768x448, .f32⟩
  | .hbm, ⟨78, _⟩ => ⟨S32768x256, .f32⟩
  | .hbm, ⟨79, _⟩ => ⟨S1x256, .f32⟩
  | .hbm, ⟨80, _⟩ => ⟨S32768x256, .f32⟩
  | .hbm, ⟨81, _⟩ => ⟨S32768x256, .f32⟩
  | .hbm, ⟨82, _⟩ => ⟨S32768x448, .f32⟩
  | .hbm, ⟨83, _⟩ => ⟨S1x448, .f32⟩
  | .hbm, ⟨84, _⟩ => ⟨S32768x448, .f32⟩
  | .hbm, ⟨85, _⟩ => ⟨S32768x448, .f32⟩
  | .hbm, ⟨86, _⟩ => ⟨S_, .f32⟩
  | .hbm, ⟨87, _⟩ => ⟨S32768x448, .f32⟩
  | .hbm, ⟨88, _⟩ => ⟨S32768x448, .f32⟩
  | .hbm, ⟨89, _⟩ => ⟨S32768x256, .f32⟩
  | .hbm, ⟨90, _⟩ => ⟨S1x256, .f32⟩
  | .hbm, ⟨91, _⟩ => ⟨S32768x256, .f32⟩
  | .hbm, ⟨92, _⟩ => ⟨S32768x256, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S32768x2688_S32768x896_0_0 : S32768x2688.Slices ![0, 0] S32768x896
  slices_S32768x2688_S32768x896_0_896 : S32768x2688.Slices ![0, 896] S32768x896
  slices_S32768x2688_S32768x896_0_1792 : S32768x2688.Slices ![0, 1792] S32768x896
  slices_S32768x1344_S32768x448_0_0 : S32768x1344.Slices ![0, 0] S32768x448
  slices_S32768x1344_S32768x448_0_448 : S32768x1344.Slices ![0, 448] S32768x448
  slices_S32768x1344_S32768x448_0_896 : S32768x1344.Slices ![0, 896] S32768x448
  concatenates_S32768x2_S32768x1_S32768x3_d1 : Shape.Concatenates [S32768x2, S32768x1] S32768x3 1
  concatenates_S32768x448_S32768x448_S32768x896_d1 : Shape.Concatenates [S32768x448, S32768x448] S32768x896 1
  bcast_S896_S1x896_1 : S896.BroadcastsInDim S1x896 (![1] : Fin 1 → Fin S1x896.rank)
  bcast_S1x896_S32768x896_0_1 : S1x896.BroadcastsInDim S32768x896 (![0, 1] : Fin 2 → Fin S32768x896.rank)
  bcast_S_S32768x896 : S_.BroadcastsInDim S32768x896 (![] : Fin 0 → Fin S32768x896.rank)
  slices_S32768x896_S32768x448_0_0 : S32768x896.Slices ![0, 0] S32768x448
  slices_S32768x896_S32768x448_0_448 : S32768x896.Slices ![0, 448] S32768x448
  bcast_S448_S1x448_1 : S448.BroadcastsInDim S1x448 (![1] : Fin 1 → Fin S1x448.rank)
  bcast_S1x448_S32768x448_0_1 : S1x448.BroadcastsInDim S32768x448 (![0, 1] : Fin 2 → Fin S32768x448.rank)
  bcast_S_S32768x448 : S_.BroadcastsInDim S32768x448 (![] : Fin 0 → Fin S32768x448.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x896_S896x2688_S32768x2688_1_0_0_1_n_n_wf : DotDims.WF S32768x896 S896x2688 S32768x2688 [1] [0] [0] [1] [] []
  dot_S32768x2_S2x1344_S32768x1344_1_0_0_1_n_n_wf : DotDims.WF S32768x2 S2x1344 S32768x1344 [1] [0] [0] [1] [] []
  dot_S32768x3_S3x1344_S32768x1344_1_0_0_1_n_n_wf : DotDims.WF S32768x3 S3x1344 S32768x1344 [1] [0] [0] [1] [] []
  dot_S32768x448_S448x448_S32768x448_1_0_0_1_n_n_wf : DotDims.WF S32768x448 S448x448 S32768x448 [1] [0] [0] [1] [] []
  dot_S32768x448_S448x256_S32768x256_1_0_0_1_n_n_wf : DotDims.WF S32768x448 S448x256 S32768x256 [1] [0] [0] [1] [] []

variable [Facts₀]

def dot_S32768x896_S896x2688_S32768x2688_1_0_0_1_n_n : DotDims S32768x896 S896x2688 S32768x2688 where
  lhsContracting := [1]
  rhsContracting := [0]
  lhsNonContracting := [0]
  rhsNonContracting := [1]
  lhsBatch := []
  rhsBatch := []
  wf := dot_S32768x896_S896x2688_S32768x2688_1_0_0_1_n_n_wf
def dot_S32768x2_S2x1344_S32768x1344_1_0_0_1_n_n : DotDims S32768x2 S2x1344 S32768x1344 where
  lhsContracting := [1]
  rhsContracting := [0]
  lhsNonContracting := [0]
  rhsNonContracting := [1]
  lhsBatch := []
  rhsBatch := []
  wf := dot_S32768x2_S2x1344_S32768x1344_1_0_0_1_n_n_wf
def dot_S32768x3_S3x1344_S32768x1344_1_0_0_1_n_n : DotDims S32768x3 S3x1344 S32768x1344 where
  lhsContracting := [1]
  rhsContracting := [0]
  lhsNonContracting := [0]
  rhsNonContracting := [1]
  lhsBatch := []
  rhsBatch := []
  wf := dot_S32768x3_S3x1344_S32768x1344_1_0_0_1_n_n_wf
def dot_S32768x448_S448x448_S32768x448_1_0_0_1_n_n : DotDims S32768x448 S448x448 S32768x448 where
  lhsContracting := [1]
  rhsContracting := [0]
  lhsNonContracting := [0]
  rhsNonContracting := [1]
  lhsBatch := []
  rhsBatch := []
  wf := dot_S32768x448_S448x448_S32768x448_1_0_0_1_n_n_wf
def dot_S32768x448_S448x256_S32768x256_1_0_0_1_n_n : DotDims S32768x448 S448x256 S32768x256 where
  lhsContracting := [1]
  rhsContracting := [0]
  lhsNonContracting := [0]
  rhsNonContracting := [1]
  lhsBatch := []
  rhsBatch := []
  wf := dot_S32768x448_S448x256_S32768x256_1_0_0_1_n_n_wf

class Facts : Prop extends Facts₀ where

variable [Facts]
-- ==== Proof.BlockReads.lean ====
/-
  The kernel's input blocks as rows of its arguments.

  The grid has 128 points; point `t` works on batch rows `256·t … 256·t + 255`. The three batched inputs (the previous
  samples, the previous hidden state, the current coarse sample) are cut into blocks of 256 rows, so entry `(p, k)` of
  point `t`'s block is entry `(256·t + p, k)` of the argument. Every weight matrix is one block, the same at every
  point; before the grid starts each is passed through a change of float format, which is the identity on extended reals,
  so a weight block is the argument itself. Every bias vector of length `n` is viewed as one row `[1, n]` before the grid
  starts, so entry `(0, a)` of its block is entry `a` of the argument.
-/
import proofs.«168580_j37495064494155_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.GruRows.Blk

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The batched windows (three inputs, three outputs) sit at block row `t`, block column 0, at point `t`. -/
theorem idx_tiled : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- Every weight and bias window sits at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-! ## The batched inputs: a block is 256 consecutive rows of the argument -/

/-- Entry `x` of point `t`'s block of batched input 0 is entry `k` of the argument, where `k` is `x` moved down by
    `256·t` rows. -/
theorem iblk0_apply (c : Dev nD) (t : Fin cfg0.N) (x : S256x2.Idx) (k : S32768x2.Idx)
    (hk0 : (k 0).val = 256 * t.val + (x 0).val) (hk1 : (k 1).val = (x 1).val) :
    (iblk m c 0 t : Vec Ideal S256x2 .f32) x = (m ((c : Thread nD τ).loc main_arg0) : S32768x2.Idx → EReal) k := by
  obtain ⟨e0, e1, -, -, -, -, -, -, -, -, -, -⟩ := idx_tiled t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * (x 0).val = (k 0).val; rw [e0, hk0]; omega
  | ⟨1, _⟩ => show win0_0.index t 1 * 2 + 1 * (x 1).val = (k 1).val; rw [e1, hk1]; omega

/-- Entry `x` of point `t`'s block of batched input 1 is entry `k` of the argument, where `k` is `x` moved down by
    `256·t` rows. -/
theorem iblk1_apply (c : Dev nD) (t : Fin cfg0.N) (x : S256x896.Idx) (k : S32768x896.Idx)
    (hk0 : (k 0).val = 256 * t.val + (x 0).val) (hk1 : (k 1).val = (x 1).val) :
    (iblk m c 1 t : Vec Ideal S256x896 .f32) x = (m ((c : Thread nD τ).loc main_arg1) : S32768x896.Idx → EReal) k := by
  obtain ⟨-, -, e0, e1, -, -, -, -, -, -, -, -⟩ := idx_tiled t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * (x 0).val = (k 0).val; rw [e0, hk0]; omega
  | ⟨1, _⟩ => show win0_1.index t 1 * 896 + 1 * (x 1).val = (k 1).val; rw [e1, hk1]; omega

/-- Entry `x` of point `t`'s block of batched input 2 is entry `k` of the argument, where `k` is `x` moved down by
    `256·t` rows. -/
theorem iblk2_apply (c : Dev nD) (t : Fin cfg0.N) (x : S256x1.Idx) (k : S32768x1.Idx)
    (hk0 : (k 0).val = 256 * t.val + (x 0).val) (hk1 : (k 1).val = (x 1).val) :
    (iblk m c 2 t : Vec Ideal S256x1 .f32) x = (m ((c : Thread nD τ).loc main_arg2) : S32768x1.Idx → EReal) k := by
  obtain ⟨-, -, -, -, e0, e1, -, -, -, -, -, -⟩ := idx_tiled t
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * (x 0).val = (k 0).val; rw [e0, hk0]; omega
  | ⟨1, _⟩ => show win0_2.index t 1 * 1 + 1 * (x 1).val = (k 1).val; rw [e1, hk1]; omega

/-! ## The weights: one block, the argument itself -/

/-- The array window 3 reads: the argument after a change of float format, the identity on extended reals. -/
theorem V_main_v7 (c : Dev nD) : (V m c main_v7 : S896x2688.Idx → EReal) = (m ((c : Thread nD τ).loc main_arg3) : S896x2688.Idx → EReal) := by
  dsimp only [Gen.V, Gen.hostOps0]
  after_results
  rfl

/-- Window 3's block at any point is the argument. -/
theorem iblk3_apply (c : Dev nD) (t : Fin cfg0.N) (k : Fin 896) (a : Fin 2688) :
    (iblk m c 3 t : Vec Ideal S896x2688 .bf16) (ix2 k a) = (m ((c : Thread nD τ).loc main_arg3) : S896x2688.Idx → EReal) (ix2 k a) := by
  obtain ⟨e0, e1, -, -, -, -, -, -, -, -, -, -, -, -, -, -, -, -, -, -, -, -, -, -, -, -, -, -⟩ := idx_whole t
  unfold iblk
  rw [View.read_apply]
  show V m c main_v7 _ = _
  rw [V_main_v7]
  congr 1
  funext b
  apply Fin.ext
  match b with
  | ⟨0, _⟩ => show win0_3.index t 0 * 896 + 1 * k.val = k.val; rw [e0]; omega
  | ⟨1, _⟩ => show win0_3.index t 1 * 2688 + 1 * a.val = a.val; rw [e1]; omega

/-- The array window 4 reads: the argument after a change of float format, the identity on extended reals. -/
theorem V_main_v8 (c : Dev nD) : (V m c main_v8 : S2x1344.Idx → EReal) = (m ((c : Thread nD τ).loc main_arg4) : S2x1344.Idx → EReal) := by
  dsimp only [Gen.V, Gen.hostOps0]
  after_results
  rfl

/-- Window 4's block at any point is the argument. -/
theorem iblk4_apply (c : Dev nD) (t : Fin cfg0.N) (k : Fin 2) (a : Fin 1344) :
    (iblk m c 4 t : Vec Ideal S2x1344 .bf16) (ix2 k a) = (m ((c : Thread nD τ).loc main_arg4) : S2x1344.Idx → EReal) (ix2 k a) := by
  obtain ⟨-, -, e0, e1, -, -, -, -, -, -, -, -, -, -, -, -, -, -, -, -, -, -, -, -, -, -, -, -⟩ := idx_whole t
  unfold iblk
  rw [View.read_apply]
  show V m c main_v8 _ = _
  rw [V_main_v8]
  congr 1
  funext b
  apply Fin.ext
  match b with
  | ⟨0, _⟩ => show win0_4.index t 0 * 2 + 1 * k.val = k.val; rw [e0]; omega
  | ⟨1, _⟩ => show win0_4.index t 1 * 1344 + 1 * a.val = a.val; rw [e1]; omega

/-- The array window 5 reads: the argument after a change of float format, the identity on extended reals. -/
theorem V_main_v9 (c : Dev nD) : (V m c main_v9 : S3x1344.Idx → EReal) = (m ((c : Thread nD τ).loc main_arg5) : S3x1344.Idx → EReal) := by
  dsimp only [Gen.V, Gen.hostOps0]
  after_results
  rfl

/-- Window 5's block at any point is the argument. -/
theorem iblk5_apply (c : Dev nD) (t : Fin cfg0.N) (k : Fin 3) (a : Fin 1344) :
    (iblk m c 5 t : Vec Ideal S3x1344 .bf16) (ix2 k a) = (m ((c : Thread nD τ).loc main_arg5) : S3x1344.Idx → EReal) (ix2 k a) := by
  obtain ⟨-, -, -, -, e0, e1, -, -, -, -, -, -, -, -, -, -, -, -, -, -, -, -, -, -, -, -, -, -⟩ := idx_whole t
  unfold iblk
  rw [View.read_apply]
  show V m c main_v9 _ = _
  rw [V_main_v9]
  congr 1
  funext b
  apply Fin.ext
  match b with
  | ⟨0, _⟩ => show win0_5.index t 0 * 3 + 1 * k.val = k.val; rw [e0]; omega
  | ⟨1, _⟩ => show win0_5.index t 1 * 1344 + 1 * a.val = a.val; rw [e1]; omega

/-- The array window 6 reads: the argument after a change of float format, the identity on extended reals. -/
theorem V_main_v10 (c : Dev nD) : (V m c main_v10 : S448x448.Idx → EReal) = (m ((c : Thread nD τ).loc main_arg6) : S448x448.Idx → EReal) := by
  dsimp only [Gen.V, Gen.hostOps0]
  after_results
  rfl

/-- Window 6's block at any point is the argument. -/
theorem iblk6_apply (c : Dev nD) (t : Fin cfg0.N) (k : Fin 448) (a : Fin 448) :
    (iblk m c 6 t : Vec Ideal S448x448 .bf16) (ix2 k a) = (m ((c : Thread nD τ).loc main_arg6) : S448x448.Idx → EReal) (ix2 k a) := by
  obtain ⟨-, -, -, -, -, -, e0, e1, -, -, -, -, -, -, -, -, -, -, -, -, -, -, -, -, -, -, -, -⟩ := idx_whole t
  unfold iblk
  rw [View.read_apply]
  show V m c main_v10 _ = _
  rw [V_main_v10]
  congr 1
  funext b
  apply Fin.ext
  match b with
  | ⟨0, _⟩ => show win0_6.index t 0 * 448 + 1 * k.val = k.val; rw [e0]; omega
  | ⟨1, _⟩ => show win0_6.index t 1 * 448 + 1 * a.val = a.val; rw [e1]; omega

/-- The array window 8 reads: the argument after a change of float format, the identity on extended reals. -/
theorem V_main_v11 (c : Dev nD) : (V m c main_v11 : S448x256.Idx → EReal) = (m ((c : Thread nD τ).loc main_arg8) : S448x256.Idx → EReal) := by
  dsimp only [Gen.V, Gen.hostOps0]
  after_results
  rfl

/-- Window 8's block at any point is the argument. -/
theorem iblk8_apply (c : Dev nD) (t : Fin cfg0.N) (k : Fin 448) (a : Fin 256) :
    (iblk m c 8 t : Vec Ideal S448x256 .bf16) (ix2 k a) = (m ((c : Thread nD τ).loc main_arg8) : S448x256.Idx → EReal) (ix2 k a) := by
  obtain ⟨-, -, -, -, -, -, -, -, -, -, e0, e1, -, -, -, -, -, -, -, -, -, -, -, -, -, -, -, -⟩ := idx_whole t
  unfold iblk
  rw [View.read_apply]
  show V m c main_v11 _ = _
  rw [V_main_v11]
  congr 1
  funext b
  apply Fin.ext
  match b with
  | ⟨0, _⟩ => show win0_8.index t 0 * 448 + 1 * k.val = k.val; rw [e0]; omega
  | ⟨1, _⟩ => show win0_8.index t 1 * 256 + 1 * a.val = a.val; rw [e1]; omega

/-- The array window 10 reads: the argument after a change of float format, the identity on extended reals. -/
theorem V_main_v12 (c : Dev nD) : (V m c main_v12 : S448x448.Idx → EReal) = (m ((c : Thread nD τ).loc main_arg10) : S448x448.Idx → EReal) := by
  dsimp only [Gen.V, Gen.hostOps0]
  after_results
  rfl

/-- Window 10's block at any point is the argument. -/
theorem iblk10_apply (c : Dev nD) (t : Fin cfg0.N) (k : Fin 448) (a : Fin 448) :
    (iblk m c 10 t : Vec Ideal S448x448 .bf16) (ix2 k a) = (m ((c : Thread nD τ).loc main_arg10) : S448x448.Idx → EReal) (ix2 k a) := by
  obtain ⟨-, -, -, -, -, -, -, -, -, -, -, -, -, -, e0, e1, -, -, -, -, -, -, -, -, -, -, -, -⟩ := idx_whole t
  unfold iblk
  rw [View.read_apply]
  show V m c main_v12 _ = _
  rw [V_main_v12]
  congr 1
  funext b
  apply Fin.ext
  match b with
  | ⟨0, _⟩ => show win0_10.index t 0 * 448 + 1 * k.val = k.val; rw [e0]; omega
  | ⟨1, _⟩ => show win0_10.index t 1 * 448 + 1 * a.val = a.val; rw [e1]; omega

/-- The array window 12 reads: the argument after a change of float format, the identity on extended reals. -/
theorem V_main_v13 (c : Dev nD) : (V m c main_v13 : S448x256.Idx → EReal) = (m ((c : Thread nD τ).loc main_arg12) : S448x256.Idx → EReal) := by
  dsimp only [Gen.V, Gen.hostOps0]
  after_results
  rfl

/-- Window 12's block at any point is the argument. -/
theorem iblk12_apply (c : Dev nD) (t : Fin cfg0.N) (k : Fin 448) (a : Fin 256) :
    (iblk m c 12 t : Vec Ideal S448x256 .bf16) (ix2 k a) = (m ((c : Thread nD τ).loc main_arg12) : S448x256.Idx → EReal) (ix2 k a) := by
  obtain ⟨-, -, -, -, -, -, -, -, -, -, -, -, -, -, -, -, -, -, e0, e1, -, -, -, -, -, -, -, -⟩ := idx_whole t
  unfold iblk
  rw [View.read_apply]
  show V m c main_v13 _ = _
  rw [V_main_v13]
  congr 1
  funext b
  apply Fin.ext
  match b with
  | ⟨0, _⟩ => show win0_12.index t 0 * 448 + 1 * k.val = k.val; rw [e0]; omega
  | ⟨1, _⟩ => show win0_12.index t 1 * 256 + 1 * a.val = a.val; rw [e1]; omega

/-! ## The biases: a vector viewed as one row -/

/-- The array window 7 reads: the bias vector viewed as a row, so its entry `(u, a)` is the vector's entry `a`. -/
theorem V_main_v3 (c : Dev nD) (u : Fin 1) (a : Fin 448) :
    (V m c main_v3 : S1x448.Idx → EReal) (ix2 u a) = (m ((c : Thread nD τ).loc main_arg7) : S448.Idx → EReal) (ix1 a) := by
  have e : (V m c main_v3 : S1x448.Idx → EReal)
      = shapeCast S1x448 (m ((c : Thread nD τ).loc main_arg7) : S448.Idx → EReal) shapeCasts_S448_S1x448 := by
    dsimp only [Gen.V, Gen.hostOps0]
    after_results
    rfl
  rw [e]
  exact shapeCast_a_1a_apply _ _ u a

/-- Window 7's block at any point, at `(0, a)`, is the bias vector's entry `a`. -/
theorem iblk7_apply (c : Dev nD) (t : Fin cfg0.N) (a : Fin 448) :
    (iblk m c 7 t : Vec Ideal S1x448 .f32) (ix2 0 a) = (m ((c : Thread nD τ).loc main_arg7) : S448.Idx → EReal) (ix1 a) := by
  obtain ⟨-, -, -, -, -, -, -, -, e0, e1, -, -, -, -, -, -, -, -, -, -, -, -, -, -, -, -, -, -⟩ := idx_whole t
  unfold iblk
  rw [View.read_apply]
  show V m c main_v3 _ = _
  refine Eq.trans (congrArg (V m c main_v3 : S1x448.Idx → EReal) ?_) (V_main_v3 m c 0 a)
  funext b
  apply Fin.ext
  match b with
  | ⟨0, _⟩ => show win0_7.index t 0 * 1 + 1 * 0 = 0; rw [e0]
  | ⟨1, _⟩ => show win0_7.index t 1 * 448 + 1 * a.val = a.val; rw [e1]; omega

/-- The array window 9 reads: the bias vector viewed as a row, so its entry `(u, a)` is the vector's entry `a`. -/
theorem V_main_v4 (c : Dev nD) (u : Fin 1) (a : Fin 256) :
    (V m c main_v4 : S1x256.Idx → EReal) (ix2 u a) = (m ((c : Thread nD τ).loc main_arg9) : S256.Idx → EReal) (ix1 a) := by
  have e : (V m c main_v4 : S1x256.Idx → EReal)
      = shapeCast S1x256 (m ((c : Thread nD τ).loc main_arg9) : S256.Idx → EReal) shapeCasts_S256_S1x256 := by
    dsimp only [Gen.V, Gen.hostOps0]
    after_results
    rfl
  rw [e]
  exact shapeCast_a_1a_apply _ _ u a

/-- Window 9's block at any point, at `(0, a)`, is the bias vector's entry `a`. -/
theorem iblk9_apply (c : Dev nD) (t : Fin cfg0.N) (a : Fin 256) :
    (iblk m c 9 t : Vec Ideal S1x256 .f32) (ix2 0 a) = (m ((c : Thread nD τ).loc main_arg9) : S256.Idx → EReal) (ix1 a) := by
  obtain ⟨-, -, -, -, -, -, -, -, -, -, -, -, e0, e1, -, -, -, -, -, -, -, -, -, -, -, -, -, -⟩ := idx_whole t
  unfold iblk
  rw [View.read_apply]
  show V m c main_v4 _ = _
  refine Eq.trans (congrArg (V m c main_v4 : S1x256.Idx → EReal) ?_) (V_main_v4 m c 0 a)
  funext b
  apply Fin.ext
  match b with
  | ⟨0, _⟩ => show win0_9.index t 0 * 1 + 1 * 0 = 0; rw [e0]
  | ⟨1, _⟩ => show win0_9.index t 1 * 256 + 1 * a.val = a.val; rw [e1]; omega

/-- The array window 11 reads: the bias vector viewed as a row, so its entry `(u, a)` is the vector's entry `a`. -/
theorem V_main_v5 (c : Dev nD) (u : Fin 1) (a : Fin 448) :
    (V m c main_v5 : S1x448.Idx → EReal) (ix2 u a) = (m ((c : Thread nD τ).loc main_arg11) : S448.Idx → EReal) (ix1 a) := by
  have e : (V m c main_v5 : S1x448.Idx → EReal)
      = shapeCast S1x448 (m ((c : Thread nD τ).loc main_arg11) : S448.Idx → EReal) shapeCasts_S448_S1x448 := by
    dsimp only [Gen.V, Gen.hostOps0]
    after_results
    rfl
  rw [e]
  exact shapeCast_a_1a_apply _ _ u a

/-- Window 11's block at any point, at `(0, a)`, is the bias vector's entry `a`. -/
theorem iblk11_apply (c : Dev nD) (t : Fin cfg0.N) (a : Fin 448) :
    (iblk m c 11 t : Vec Ideal S1x448 .f32) (ix2 0 a) = (m ((c : Thread nD τ).loc main_arg11) : S448.Idx → EReal) (ix1 a) := by
  obtain ⟨-, -, -, -, -, -, -, -, -, -, -, -, -, -, -, -, e0, e1, -, -, -, -, -, -, -, -, -, -⟩ := idx_whole t
  unfold iblk
  rw [View.read_apply]
  show V m c main_v5 _ = _
  refine Eq.trans (congrArg (V m c main_v5 : S1x448.Idx → EReal) ?_) (V_main_v5 m c 0 a)
  funext b
  apply Fin.ext
  match b with
  | ⟨0, _⟩ => show win0_11.index t 0 * 1 + 1 * 0 = 0; rw [e0]
  | ⟨1, _⟩ => show win0_11.index t 1 * 448 + 1 * a.val = a.val; rw [e1]; omega

/-- The array window 13 reads: the bias vector viewed as a row, so its entry `(u, a)` is the vector's entry `a`. -/
theorem V_main_v6 (c : Dev nD) (u : Fin 1) (a : Fin 256) :
    (V m c main_v6 : S1x256.Idx → EReal) (ix2 u a) = (m ((c : Thread nD τ).loc main_arg13) : S256.Idx → EReal) (ix1 a) := by
  have e : (V m c main_v6 : S1x256.Idx → EReal)
      = shapeCast S1x256 (m ((c : Thread nD τ).loc main_arg13) : S256.Idx → EReal) shapeCasts_S256_S1x256 := by
    dsimp only [Gen.V, Gen.hostOps0]
    after_results
    rfl
  rw [e]
  exact shapeCast_a_1a_apply _ _ u a

/-- Window 13's block at any point, at `(0, a)`, is the bias vector's entry `a`. -/
theorem iblk13_apply (c : Dev nD) (t : Fin cfg0.N) (a : Fin 256) :
    (iblk m c 13 t : Vec Ideal S1x256 .f32) (ix2 0 a) = (m ((c : Thread nD τ).loc main_arg13) : S256.Idx → EReal) (ix1 a) := by
  obtain ⟨-, -, -, -, -, -, -, -, -, -, -, -, -, -, -, -, -, -, -, -, e0, e1, -, -, -, -, -, -⟩ := idx_whole t
  unfold iblk
  rw [View.read_apply]
  show V m c main_v6 _ = _
  refine Eq.trans (congrArg (V m c main_v6 : S1x256.Idx → EReal) ?_) (V_main_v6 m c 0 a)
  funext b
  apply Fin.ext
  match b with
  | ⟨0, _⟩ => show win0_13.index t 0 * 1 + 1 * 0 = 0; rw [e0]
  | ⟨1, _⟩ => show win0_13.index t 1 * 256 + 1 * a.val = a.val; rw [e1]; omega

/-- The array window 14 reads: the bias vector viewed as a row, so its entry `(u, a)` is the vector's entry `a`. -/
theorem V_main_v0 (c : Dev nD) (u : Fin 1) (a : Fin 896) :
    (V m c main_v0 : S1x896.Idx → EReal) (ix2 u a) = (m ((c : Thread nD τ).loc main_arg14) : S896.Idx → EReal) (ix1 a) := by
  have e : (V m c main_v0 : S1x896.Idx → EReal)
      = shapeCast S1x896 (m ((c : Thread nD τ).loc main_arg14) : S896.Idx → EReal) shapeCasts_S896_S1x896 := by
    dsimp only [Gen.V, Gen.hostOps0]
    after_results
    rfl
  rw [e]
  exact shapeCast_a_1a_apply _ _ u a

/-- Window 14's block at any point, at `(0, a)`, is the bias vector's entry `a`. -/
theorem iblk14_apply (c : Dev nD) (t : Fin cfg0.N) (a : Fin 896) :
    (iblk m c 14 t : Vec Ideal S1x896 .f32) (ix2 0 a) = (m ((c : Thread nD τ).loc main_arg14) : S896.Idx → EReal) (ix1 a) := by
  obtain ⟨-, -, -, -, -, -, -, -, -, -, -, -, -, -, -, -, -, -, -, -, -, -, e0, e1, -, -, -, -⟩ := idx_whole t
  unfold iblk
  rw [View.read_apply]
  show V m c main_v0 _ = _
  refine Eq.trans (congrArg (V m c main_v0 : S1x896.Idx → EReal) ?_) (V_main_v0 m c 0 a)
  funext b
  apply Fin.ext
  match b with
  | ⟨0, _⟩ => show win0_14.index t 0 * 1 + 1 * 0 = 0; rw [e0]
  | ⟨1, _⟩ => show win0_14.index t 1 * 896 + 1 * a.val = a.val; rw [e1]; omega

/-- The array window 15 reads: the bias vector viewed as a row, so its entry `(u, a)` is the vector's entry `a`. -/
theorem V_main_v1 (c : Dev nD) (u : Fin 1) (a : Fin 896) :
    (V m c main_v1 : S1x896.Idx → EReal) (ix2 u a) = (m ((c : Thread nD τ).loc main_arg15) : S896.Idx → EReal) (ix1 a) := by
  have e : (V m c main_v1 : S1x896.Idx → EReal)
      = shapeCast S1x896 (m ((c : Thread nD τ).loc main_arg15) : S896.Idx → EReal) shapeCasts_S896_S1x896 := by
    dsimp only [Gen.V, Gen.hostOps0]
    after_results
    rfl
  rw [e]
  exact shapeCast_a_1a_apply _ _ u a

/-- Window 15's block at any point, at `(0, a)`, is the bias vector's entry `a`. -/
theorem iblk15_apply (c : Dev nD) (t : Fin cfg0.N) (a : Fin 896) :
    (iblk m c 15 t : Vec Ideal S1x896 .f32) (ix2 0 a) = (m ((c : Thread nD τ).loc main_arg15) : S896.Idx → EReal) (ix1 a) := by
  obtain ⟨-, -, -, -, -, -, -, -, -, -, -, -, -, -, -, -, -, -, -, -, -, -, -, -, e0, e1, -, -⟩ := idx_whole t
  unfold iblk
  rw [View.read_apply]
  show V m c main_v1 _ = _
  refine Eq.trans (congrArg (V m c main_v1 : S1x896.Idx → EReal) ?_) (V_main_v1 m c 0 a)
  funext b
  apply Fin.ext
  match b with
  | ⟨0, _⟩ => show win0_15.index t 0 * 1 + 1 * 0 = 0; rw [e0]
  | ⟨1, _⟩ => show win0_15.index t 1 * 896 + 1 * a.val = a.val; rw [e1]; omega

/-- The array window 16 reads: the bias vector viewed as a row, so its entry `(u, a)` is the vector's entry `a`. -/
theorem V_main_v2 (c : Dev nD) (u : Fin 1) (a : Fin 896) :
    (V m c main_v2 : S1x896.Idx → EReal) (ix2 u a) = (m ((c : Thread nD τ).loc main_arg16) : S896.Idx → EReal) (ix1 a) := by
  have e : (V m c main_v2 : S1x896.Idx → EReal)
      = shapeCast S1x896 (m ((c : Thread nD τ).loc main_arg16) : S896.Idx → EReal) shapeCasts_S896_S1x896 := by
    dsimp only [Gen.V, Gen.hostOps0]
    after_results
    rfl
  rw [e]
  exact shapeCast_a_1a_apply _ _ u a

/-- Window 16's block at any point, at `(0, a)`, is the bias vector's entry `a`. -/
theorem iblk16_apply (c : Dev nD) (t : Fin cfg0.N) (a : Fin 896) :
    (iblk m c 16 t : Vec Ideal S1x896 .f32) (ix2 0 a) = (m ((c : Thread nD τ).loc main_arg16) : S896.Idx → EReal) (ix1 a) := by
  obtain ⟨-, -, -, -, -, -, -, -, -, -, -, -, -, -, -, -, -, -, -, -, -, -, -, -, -, -, e0, e1⟩ := idx_whole t
  unfold iblk
  rw [View.read_apply]
  show V m c main_v2 _ = _
  refine Eq.trans (congrArg (V m c main_v2 : S1x896.Idx → EReal) ?_) (V_main_v2 m c 0 a)
  funext b
  apply Fin.ext
  match b with
  | ⟨0, _⟩ => show win0_16.index t 0 * 1 + 1 * 0 = 0; rw [e0]
  | ⟨1, _⟩ => show win0_16.index t 1 * 896 + 1 * a.val = a.val; rw [e1]; omega

end Cert.GruRows.Blk

end
-- ==== Proof.RowSpec.lean ====
/-
  One step of a gated recurrent unit followed by two small perceptrons, stated ONE BATCH ROW AT A TIME over the
  extended reals.

  A row of the batch carries `y : Fin 2 → EReal` (the two previous samples), `h : Fin 896 → EReal` (the previous hidden
  state) and `cc : EReal` (the current coarse sample). With the weights `WR : 896 × 2688`, `WIc : 2 × 1344`,
  `WIf : 3 × 1344` and three bias vectors of length 896,

    R   = h · WR                                   (2688 entries: three groups of 896, for the gates u, r and the candidate e)
    Ic  = y · WIc,   If = (y, cc) · WIf            (1344 entries each: three groups of 448)
    I_g = the g-th group of Ic followed by the g-th group of If          (896 entries, g = u, r, e)
    u   = σ(R_u + I_u + b_u),   r = σ(R_r + I_r + b_r),   e = tanh(r · R_e + I_e + b_e)
    h'  = u · h + (1 − u) · e

  and, for either half x of h' (448 entries) with its own weights,  out = max(x · W1 + b1, 0) · W2 + b2  (256 entries).
  Here σ(t) = 1 / (1 + exp(−t)) is the library's `Ideal.logistic`, with its conventions at the infinities; nothing below
  needs an entry to be finite. The constant of `1 − u` and the zero of the maximum are kept as the words the programs
  print, so that neither is ever evaluated.

  Every output entry of row p depends on row p of the three batched inputs only, and on the whole weights: that is what
  makes a block of rows computed alone equal to the same rows of the whole array.
-/
import Idealize.ShloMosaic.PureOps.Ideal
import Idealize.ShloMosaic.Lib.ValueIdx

noncomputable section

open scoped BigOperators

namespace Cert.GruRows

open Idealize.ShloMosaic

/-- A row times a matrix: entry `j` is `∑ k, x k * W k j`. -/
def rowDot {K A : Nat} (x : Fin K → EReal) (W : Fin K → Fin A → EReal) (j : Fin A) : EReal :=
  ∑ k : Fin K, x k * W k j

/-- The two previous samples followed by the current coarse one. -/
def fineIn (y : Fin 2 → EReal) (cc : EReal) : Fin 3 → EReal :=
  fun a => if h : a.val < 2 then y ⟨a.val, h⟩ else cc

/-- Two rows of 448 entries side by side. -/
def sideBySide (a b : Fin 448 → EReal) : Fin 896 → EReal :=
  fun q => if h : q.val < 448 then a ⟨q.val, h⟩ else b ⟨q.val - 448, by have := q.isLt; omega⟩

/-- The first 448 entries of a row of 896. -/
def loHalf (v : Fin 896 → EReal) : Fin 448 → EReal := fun k => v ⟨k.val, by have := k.isLt; omega⟩

/-- The last 448 entries of a row of 896. -/
def hiHalf (v : Fin 896 → EReal) : Fin 448 → EReal := fun k => v ⟨448 + k.val, by have := k.isLt; omega⟩

/-- The word the programs print for `1.0`. -/
def oneWord : EReal := Ideal.ofBits .f32 0x3F800000#32

/-- The word the programs print for `0.0`. -/
def zeroWord : EReal := Ideal.ofBits .f32 0x00000000#32

/-- Columns `off … off + 447` of the coarse projection `y · WIc` followed by the same columns of the fine projection
    `(y, cc) · WIf`. -/
def inProj (y : Fin 2 → EReal) (cc : EReal) (WIc : Fin 2 → Fin 1344 → EReal) (WIf : Fin 3 → Fin 1344 → EReal)
    (off : Nat) (hoff : off + 448 ≤ 1344) : Fin 896 → EReal :=
  sideBySide (fun k => rowDot y WIc ⟨off + k.val, by have := k.isLt; omega⟩)
    (fun k => rowDot (fineIn y cc) WIf ⟨off + k.val, by have := k.isLt; omega⟩)

/-- The update gate `u`. -/
def gateU (y : Fin 2 → EReal) (h : Fin 896 → EReal) (cc : EReal) (WR : Fin 896 → Fin 2688 → EReal)
    (WIc : Fin 2 → Fin 1344 → EReal) (WIf : Fin 3 → Fin 1344 → EReal) (bu : Fin 896 → EReal) (q : Fin 896) : EReal :=
  Ideal.logistic (rowDot h WR ⟨q.val, by have := q.isLt; omega⟩ + inProj y cc WIc WIf 0 (by omega) q + bu q)

/-- The reset gate `r`. -/
def gateR (y : Fin 2 → EReal) (h : Fin 896 → EReal) (cc : EReal) (WR : Fin 896 → Fin 2688 → EReal)
    (WIc : Fin 2 → Fin 1344 → EReal) (WIf : Fin 3 → Fin 1344 → EReal) (br : Fin 896 → EReal) (q : Fin 896) : EReal :=
  Ideal.logistic (rowDot h WR ⟨896 + q.val, by have := q.isLt; omega⟩ + inProj y cc WIc WIf 448 (by omega) q + br q)

/-- The candidate state `e`. -/
def cand (y : Fin 2 → EReal) (h : Fin 896 → EReal) (cc : EReal) (WR : Fin 896 → Fin 2688 → EReal)
    (WIc : Fin 2 → Fin 1344 → EReal) (WIf : Fin 3 → Fin 1344 → EReal) (br be : Fin 896 → EReal) (q : Fin 896) : EReal :=
  Ideal.tanh (gateR y h cc WR WIc WIf br q * rowDot h WR ⟨1792 + q.val, by have := q.isLt; omega⟩
    + inProj y cc WIc WIf 896 (by omega) q + be q)

/-- The new hidden state of one row: `u · h + (1 − u) · e`. -/
def hiddenRow (y : Fin 2 → EReal) (h : Fin 896 → EReal) (cc : EReal) (WR : Fin 896 → Fin 2688 → EReal)
    (WIc : Fin 2 → Fin 1344 → EReal) (WIf : Fin 3 → Fin 1344 → EReal) (bu br be : Fin 896 → EReal) (q : Fin 896) : EReal :=
  gateU y h cc WR WIc WIf bu q * h q + (oneWord - gateU y h cc WR WIc WIf bu q) * cand y h cc WR WIc WIf br be q

/-- One perceptron on a row of 448: `max(x · W1 + b1, 0) · W2 + b2`. -/
def mlpRow (x : Fin 448 → EReal) (W1 : Fin 448 → Fin 448 → EReal) (b1 : Fin 448 → EReal)
    (W2 : Fin 448 → Fin 256 → EReal) (b2 : Fin 256 → EReal) (j : Fin 256) : EReal :=
  rowDot (fun k => max (rowDot x W1 k + b1 k) zeroWord) W2 j + b2 j

/-- The perceptron reads its row entry by entry: rows that agree give the same output. -/
theorem mlpRow_congr {x x' : Fin 448 → EReal} (hx : ∀ k, x k = x' k) (W1 : Fin 448 → Fin 448 → EReal)
    (b1 : Fin 448 → EReal) (W2 : Fin 448 → Fin 256 → EReal) (b2 : Fin 256 → EReal) (j : Fin 256) :
    mlpRow x W1 b1 W2 b2 j = mlpRow x' W1 b1 W2 b2 j := by
  rw [show x = x' from funext hx]

end Cert.GruRows

end
-- ==== Proof.ArraySpec.lean ====
/-
  The three results as whole arrays: entry `(p, q)` of the new hidden state, and entry `(p, j)` of each perceptron's
  output, as functions of the argument arrays. Row `p` of a result reads row `p` of the three batched arguments and the
  whole weights (`RowSpec`); the two perceptrons read the two halves of row `p` of the hidden state.

  The congruence lemmas say that the row functions read their arguments entry by entry: two families of rows and weights
  that agree entry by entry give the same result. They are what lets a block of 256 rows stand for the same rows of the
  whole array.
-/
import proofs.«168580_j37495064494155_1_alg».proof.Proof.RowSpec

noncomputable section

open scoped BigOperators

namespace Cert.GruRows

open Idealize.ShloMosaic Idealize.ShloMosaic.ValueIdx

/-- A matrix of extended reals with `r` rows and `c` columns. -/
abbrev Mat (r c : Nat) : Type := (⟨2, ![r, c]⟩ : Shape).Idx → EReal

/-- A vector of `n` extended reals. -/
abbrev Vect (n : Nat) : Type := (⟨1, ![n]⟩ : Shape).Idx → EReal

/-- The new hidden state of batch row `p` at column `q`. -/
def hidAt (a0 : Mat 32768 2) (a1 : Mat 32768 896) (a2 : Mat 32768 1) (a3 : Mat 896 2688) (a4 : Mat 2 1344)
    (a5 : Mat 3 1344) (a14 a15 a16 : Vect 896) (p : Fin 32768) (q : Fin 896) : EReal :=
  hiddenRow (fun k => a0 (ix2 p k)) (fun k => a1 (ix2 p k)) (a2 (ix2 p 0))
    (fun k a => a3 (ix2 k a)) (fun k a => a4 (ix2 k a)) (fun k a => a5 (ix2 k a))
    (fun a => a14 (ix1 a)) (fun a => a15 (ix1 a)) (fun a => a16 (ix1 a)) q

/-- The coarse output of batch row `p` at column `j`: the first perceptron on the first half of the row's hidden state. -/
def coarseAt (a0 : Mat 32768 2) (a1 : Mat 32768 896) (a2 : Mat 32768 1) (a3 : Mat 896 2688) (a4 : Mat 2 1344)
    (a5 : Mat 3 1344) (a6 : Mat 448 448) (a7 : Vect 448) (a8 : Mat 448 256) (a9 : Vect 256) (a14 a15 a16 : Vect 896)
    (p : Fin 32768) (j : Fin 256) : EReal :=
  mlpRow (loHalf (hidAt a0 a1 a2 a3 a4 a5 a14 a15 a16 p)) (fun k a => a6 (ix2 k a)) (fun a => a7 (ix1 a))
    (fun k a => a8 (ix2 k a)) (fun a => a9 (ix1 a)) j

/-- The fine output of batch row `p` at column `j`: the second perceptron on the second half of the row's hidden state. -/
def fineAt (a0 : Mat 32768 2) (a1 : Mat 32768 896) (a2 : Mat 32768 1) (a3 : Mat 896 2688) (a4 : Mat 2 1344)
    (a5 : Mat 3 1344) (a10 : Mat 448 448) (a11 : Vect 448) (a12 : Mat 448 256) (a13 : Vect 256) (a14 a15 a16 : Vect 896)
    (p : Fin 32768) (j : Fin 256) : EReal :=
  mlpRow (hiHalf (hidAt a0 a1 a2 a3 a4 a5 a14 a15 a16 p)) (fun k a => a10 (ix2 k a)) (fun a => a11 (ix1 a))
    (fun k a => a12 (ix2 k a)) (fun a => a13 (ix1 a)) j

/-- The new hidden state, as an array. -/
def Ghid (a0 : Mat 32768 2) (a1 : Mat 32768 896) (a2 : Mat 32768 1) (a3 : Mat 896 2688) (a4 : Mat 2 1344)
    (a5 : Mat 3 1344) (a14 a15 a16 : Vect 896) : Mat 32768 896 :=
  fun i => hidAt a0 a1 a2 a3 a4 a5 a14 a15 a16 ⟨(i 0).val, (i 0).isLt⟩ ⟨(i 1).val, (i 1).isLt⟩

/-- The coarse output, as an array. -/
def Gcoarse (a0 : Mat 32768 2) (a1 : Mat 32768 896) (a2 : Mat 32768 1) (a3 : Mat 896 2688) (a4 : Mat 2 1344)
    (a5 : Mat 3 1344) (a6 : Mat 448 448) (a7 : Vect 448) (a8 : Mat 448 256) (a9 : Vect 256) (a14 a15 a16 : Vect 896) :
    Mat 32768 256 :=
  fun i => coarseAt a0 a1 a2 a3 a4 a5 a6 a7 a8 a9 a14 a15 a16 ⟨(i 0).val, (i 0).isLt⟩ ⟨(i 1).val, (i 1).isLt⟩

/-- The fine output, as an array. -/
def Gfine (a0 : Mat 32768 2) (a1 : Mat 32768 896) (a2 : Mat 32768 1) (a3 : Mat 896 2688) (a4 : Mat 2 1344)
    (a5 : Mat 3 1344) (a10 : Mat 448 448) (a11 : Vect 448) (a12 : Mat 448 256) (a13 : Vect 256) (a14 a15 a16 : Vect 896) :
    Mat 32768 256 :=
  fun i => fineAt a0 a1 a2 a3 a4 a5 a10 a11 a12 a13 a14 a15 a16 ⟨(i 0).val, (i 0).isLt⟩ ⟨(i 1).val, (i 1).isLt⟩

/-- The hidden-state row reads its arguments entry by entry. -/
theorem hiddenRow_congr {y y' : Fin 2 → EReal} {h h' : Fin 896 → EReal} {cc cc' : EReal}
    {WR WR' : Fin 896 → Fin 2688 → EReal} {WIc WIc' : Fin 2 → Fin 1344 → EReal} {WIf WIf' : Fin 3 → Fin 1344 → EReal}
    {bu bu' br br' be be' : Fin 896 → EReal}
    (hy : ∀ k, y k = y' k) (hh : ∀ k, h k = h' k) (hcc : cc = cc') (hWR : ∀ k a, WR k a = WR' k a)
    (hWIc : ∀ k a, WIc k a = WIc' k a) (hWIf : ∀ k a, WIf k a = WIf' k a)
    (hbu : ∀ a, bu a = bu' a) (hbr : ∀ a, br a = br' a) (hbe : ∀ a, be a = be' a) (q : Fin 896) :
    hiddenRow y h cc WR WIc WIf bu br be q = hiddenRow y' h' cc' WR' WIc' WIf' bu' br' be' q := by
  obtain rfl : y = y' := funext hy
  obtain rfl : h = h' := funext hh
  obtain rfl := hcc
  obtain rfl : WR = WR' := funext fun k => funext (hWR k)
  obtain rfl : WIc = WIc' := funext fun k => funext (hWIc k)
  obtain rfl : WIf = WIf' := funext fun k => funext (hWIf k)
  obtain rfl : bu = bu' := funext hbu
  obtain rfl : br = br' := funext hbr
  obtain rfl : be = be' := funext hbe
  rfl

/-- The perceptron reads its row, its weights and its biases entry by entry. -/
theorem mlpRow_congr_all {x x' : Fin 448 → EReal} {W1 W1' : Fin 448 → Fin 448 → EReal} {b1 b1' : Fin 448 → EReal}
    {W2 W2' : Fin 448 → Fin 256 → EReal} {b2 b2' : Fin 256 → EReal}
    (hx : ∀ k, x k = x' k) (hW1 : ∀ k a, W1 k a = W1' k a) (hb1 : ∀ a, b1 a = b1' a)
    (hW2 : ∀ k a, W2 k a = W2' k a) (hb2 : ∀ a, b2 a = b2' a) (j : Fin 256) :
    mlpRow x W1 b1 W2 b2 j = mlpRow x' W1' b1' W2' b2' j := by
  obtain rfl : x = x' := funext hx
  obtain rfl : W1 = W1' := funext fun k => funext (hW1 k)
  obtain rfl : b1 = b1' := funext hb1
  obtain rfl : W2 = W2' := funext fun k => funext (hW2 k)
  obtain rfl : b2 = b2' := funext hb2
  rfl

/-- Rows of 896 that agree entry by entry have the same first half. -/
theorem loHalf_congr {v v' : Fin 896 → EReal} (hv : ∀ q, v q = v' q) (k : Fin 448) : loHalf v k = loHalf v' k := hv _

/-- Rows of 896 that agree entry by entry have the same second half. -/
theorem hiHalf_congr {v v' : Fin 896 → EReal} (hv : ∀ q, v q = v' q) (k : Fin 448) : hiHalf v k = hiHalf v' k := hv _

end Cert.GruRows

end
-- ==== Proof.KerHidden.lean ====
/-
  The kernel body's new hidden state, read one entry at a time.

  On a block of 256 batch rows the body forms the recurrent product `h · WR` and the two input projections `y · WIc` and
  `(y, cc) · WIf` as matrix products into a zero accumulator, slices each into its three groups of columns, sets the
  groups of the two projections side by side, and forms the gates `u`, `r`, the candidate `e` and
  `h' = u · h + (1 − u) · e` entry by entry. A matrix product into a zero accumulator, read at `(p, j)`, is the plain sum
  over `k` of row `p` of the left factor times column `j` of the right one; a change of float format is the identity on
  extended reals; a slice shifts the column; two blocks of 448 columns set side by side are read by the column's quotient
  and remainder by 448. So row `p` of the result is the row function of row `p` of the three batched blocks.
-/
import proofs.«168580_j37495064494155_1_alg».proof.Proof.Gen.KernelIdeal.Value
import proofs.«168580_j37495064494155_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GruRows.Ker

open Cert.KernelIdeal Cert.KernelIdeal.Gen Idealize.ShloMosaic Idealize.ShloMosaic.TcCoe
open Idealize.ShloMosaic.ValueIdx Cert.GruRows

/-! ## The three products of the body, read at an index

A `tpu.matmul` into the zero accumulator, read at row `p` and column `c`, is the sum over the contracted axis of the
left operand's row `p` times the right operand's column `c`; a change of float format and a shape cast to the same shape
are the identity, so the operands are the loaded blocks themselves. -/

/-- The recurrent product `h · WR` at row `p`, column `c`. -/
theorem recur_at (P0 : Vec Ideal S256x896 .f32) (P1 : Vec Ideal S896x2688 .bf16) (p : Fin 256) (c : Fin 2688) :
    k0_pay2 (F := Ideal) P0 P1 (ix2 p c) = rowDot (fun k => P0 (ix2 p k)) (fun k a => P1 (ix2 k a)) c := by
  unfold k0_pay2 rowDot
  refine (Ideal.matmul_constant_zero_apply dot_S256x896_S896x2688_S256x2688_1_0_0_1_n_n none _ _ (ix2 p c)).trans ?_
  rw [← Equiv.sum_comp (contrEquiv1 dot_S256x896_S896x2688_S256x2688_1_0_0_1_n_n 896 rfl rfl).symm]
  refine Finset.sum_congr rfl fun k _ => ?_
  have hk := contrEquiv1_symm_val dot_S256x896_S896x2688_S256x2688_1_0_0_1_n_n 896 rfl rfl k
  have el : dot_S256x896_S896x2688_S256x2688_1_0_0_1_n_n.lhsIdx (ix2 p c) ((contrEquiv1 dot_S256x896_S896x2688_S256x2688_1_0_0_1_n_n 896 rfl rfl).symm k) = ix2 p k :=
    funext fun a => Fin.ext (by
      match a with
      | ⟨0, _⟩ =>
        show (dot_S256x896_S896x2688_S256x2688_1_0_0_1_n_n.lhsIdx (ix2 p c) ((contrEquiv1 dot_S256x896_S896x2688_S256x2688_1_0_0_1_n_n 896 rfl rfl).symm k) 0).val = p.val
        unfold DotDims.lhsIdx
        rw [dif_neg (show ¬(0 : Fin S256x896.rank) ∈ dot_S256x896_S896x2688_S256x2688_1_0_0_1_n_n.lhsBatch by decide),
          dif_pos (show (0 : Fin S256x896.rank) ∈ dot_S256x896_S896x2688_S256x2688_1_0_0_1_n_n.lhsNonContracting by decide)]
        rfl
      | ⟨1, _⟩ => exact (dot_S256x896_S896x2688_S256x2688_1_0_0_1_n_n.lhsIdx_val_of_single rfl _ _).trans hk)
  have er : dot_S256x896_S896x2688_S256x2688_1_0_0_1_n_n.rhsIdx (ix2 p c) ((contrEquiv1 dot_S256x896_S896x2688_S256x2688_1_0_0_1_n_n 896 rfl rfl).symm k) = ix2 k c :=
    funext fun a => Fin.ext (by
      match a with
      | ⟨0, _⟩ => exact (dot_S256x896_S896x2688_S256x2688_1_0_0_1_n_n.rhsIdx_val_of_single rfl _ _).trans hk
      | ⟨1, _⟩ =>
        show (dot_S256x896_S896x2688_S256x2688_1_0_0_1_n_n.rhsIdx (ix2 p c) ((contrEquiv1 dot_S256x896_S896x2688_S256x2688_1_0_0_1_n_n 896 rfl rfl).symm k) 1).val = c.val
        unfold DotDims.rhsIdx
        rw [dif_neg (show ¬(1 : Fin S896x2688.rank) ∈ dot_S256x896_S896x2688_S256x2688_1_0_0_1_n_n.rhsBatch by decide),
          dif_pos (show (1 : Fin S896x2688.rank) ∈ dot_S256x896_S896x2688_S256x2688_1_0_0_1_n_n.rhsNonContracting by decide)]
        rfl)
  rw [el, er]
  rw [shapeCast_self]
  rfl

/-- The coarse input projection `y · WIc` at row `p`, column `c`. -/
theorem coarse_proj_at (P2 : Vec Ideal S256x2 .f32) (P3 : Vec Ideal S2x1344 .bf16) (p : Fin 256) (c : Fin 1344) :
    k0_pay5 (F := Ideal) P2 P3 (ix2 p c) = rowDot (fun k => P2 (ix2 p k)) (fun k a => P3 (ix2 k a)) c := by
  unfold k0_pay5 rowDot
  refine (Ideal.matmul_constant_zero_apply dot_S256x2_S2x1344_S256x1344_1_0_0_1_n_n none _ _ (ix2 p c)).trans ?_
  rw [← Equiv.sum_comp (contrEquiv1 dot_S256x2_S2x1344_S256x1344_1_0_0_1_n_n 2 rfl rfl).symm]
  refine Finset.sum_congr rfl fun k _ => ?_
  have hk := contrEquiv1_symm_val dot_S256x2_S2x1344_S256x1344_1_0_0_1_n_n 2 rfl rfl k
  have el : dot_S256x2_S2x1344_S256x1344_1_0_0_1_n_n.lhsIdx (ix2 p c) ((contrEquiv1 dot_S256x2_S2x1344_S256x1344_1_0_0_1_n_n 2 rfl rfl).symm k) = ix2 p k :=
    funext fun a => Fin.ext (by
      match a with
      | ⟨0, _⟩ =>
        show (dot_S256x2_S2x1344_S256x1344_1_0_0_1_n_n.lhsIdx (ix2 p c) ((contrEquiv1 dot_S256x2_S2x1344_S256x1344_1_0_0_1_n_n 2 rfl rfl).symm k) 0).val = p.val
        unfold DotDims.lhsIdx
        rw [dif_neg (show ¬(0 : Fin S256x2.rank) ∈ dot_S256x2_S2x1344_S256x1344_1_0_0_1_n_n.lhsBatch by decide),
          dif_pos (show (0 : Fin S256x2.rank) ∈ dot_S256x2_S2x1344_S256x1344_1_0_0_1_n_n.lhsNonContracting by decide)]
        rfl
      | ⟨1, _⟩ => exact (dot_S256x2_S2x1344_S256x1344_1_0_0_1_n_n.lhsIdx_val_of_single rfl _ _).trans hk)
  have er : dot_S256x2_S2x1344_S256x1344_1_0_0_1_n_n.rhsIdx (ix2 p c) ((contrEquiv1 dot_S256x2_S2x1344_S256x1344_1_0_0_1_n_n 2 rfl rfl).symm k) = ix2 k c :=
    funext fun a => Fin.ext (by
      match a with
      | ⟨0, _⟩ => exact (dot_S256x2_S2x1344_S256x1344_1_0_0_1_n_n.rhsIdx_val_of_single rfl _ _).trans hk
      | ⟨1, _⟩ =>
        show (dot_S256x2_S2x1344_S256x1344_1_0_0_1_n_n.rhsIdx (ix2 p c) ((contrEquiv1 dot_S256x2_S2x1344_S256x1344_1_0_0_1_n_n 2 rfl rfl).symm k) 1).val = c.val
        unfold DotDims.rhsIdx
        rw [dif_neg (show ¬(1 : Fin S2x1344.rank) ∈ dot_S256x2_S2x1344_S256x1344_1_0_0_1_n_n.rhsBatch by decide),
          dif_pos (show (1 : Fin S2x1344.rank) ∈ dot_S256x2_S2x1344_S256x1344_1_0_0_1_n_n.rhsNonContracting by decide)]
        rfl)
  rw [el, er]
  rw [shapeCast_self]
  rfl

/-- The fine projection's left operand, the previous samples followed by the current coarse one, at row `p`: a column
    below 2 falls in the first operand of the concatenation, column 2 in the second. -/
theorem samples_at (P2 : Vec Ideal S256x2 .f32) (P4 : Vec Ideal S256x1 .f32) (p : Fin 256) (k : Fin 3) :
    concatenate S256x3 1 [⟨S256x2, P2⟩, ⟨S256x1, P4⟩] concatenates_S256x2_S256x1_S256x3_d1 (ix2 p k)
      = fineIn (fun k => P2 (ix2 p k)) (P4 (ix2 p 0)) k := by
  have hk := k.isLt
  unfold fineIn
  by_cases h : k.val < 2
  · rw [dif_pos h]
    exact concatenate_pair_apply_left (t := S256x3) (s₁ := S256x2) (s₂ := S256x1) (1 : Fin 2) P2 P4 _ (ix2 p k) rfl
      (ix2 p ⟨k.val, h⟩) (fun b => match b with | ⟨0, _⟩ => rfl | ⟨1, _⟩ => rfl)
  · rw [dif_neg h]
    exact concatenate_pair_apply_right (t := S256x3) (s₁ := S256x2) (s₂ := S256x1) (1 : Fin 2) P2 P4 _ (ix2 p k) rfl rfl
      (ix2 p 0) (fun b hb => match b, hb with | ⟨0, _⟩, _ => rfl | ⟨1, _⟩, hb => absurd rfl hb)
      (by show 0 + 2 = k.val; omega)

/-- The fine input projection `(y, cc) · WIf` at row `p`, column `c`. -/
theorem fine_proj_at (P2 : Vec Ideal S256x2 .f32) (P4 : Vec Ideal S256x1 .f32) (P5 : Vec Ideal S3x1344 .bf16) (p : Fin 256)
    (c : Fin 1344) :
    k0_pay6 (F := Ideal) P2 P4 P5 (ix2 p c)
      = rowDot (fineIn (fun k => P2 (ix2 p k)) (P4 (ix2 p 0))) (fun k a => P5 (ix2 k a)) c := by
  unfold k0_pay6 rowDot
  refine (Ideal.matmul_constant_zero_apply dot_S256x3_S3x1344_S256x1344_1_0_0_1_n_n none _ _ (ix2 p c)).trans ?_
  rw [← Equiv.sum_comp (contrEquiv1 dot_S256x3_S3x1344_S256x1344_1_0_0_1_n_n 3 rfl rfl).symm]
  refine Finset.sum_congr rfl fun k _ => ?_
  have hk := contrEquiv1_symm_val dot_S256x3_S3x1344_S256x1344_1_0_0_1_n_n 3 rfl rfl k
  have el : dot_S256x3_S3x1344_S256x1344_1_0_0_1_n_n.lhsIdx (ix2 p c) ((contrEquiv1 dot_S256x3_S3x1344_S256x1344_1_0_0_1_n_n 3 rfl rfl).symm k) = ix2 p k :=
    funext fun a => Fin.ext (by
      match a with
      | ⟨0, _⟩ =>
        show (dot_S256x3_S3x1344_S256x1344_1_0_0_1_n_n.lhsIdx (ix2 p c) ((contrEquiv1 dot_S256x3_S3x1344_S256x1344_1_0_0_1_n_n 3 rfl rfl).symm k) 0).val = p.val
        unfold DotDims.lhsIdx
        rw [dif_neg (show ¬(0 : Fin S256x3.rank) ∈ dot_S256x3_S3x1344_S256x1344_1_0_0_1_n_n.lhsBatch by decide),
          dif_pos (show (0 : Fin S256x3.rank) ∈ dot_S256x3_S3x1344_S256x1344_1_0_0_1_n_n.lhsNonContracting by decide)]
        rfl
      | ⟨1, _⟩ => exact (dot_S256x3_S3x1344_S256x1344_1_0_0_1_n_n.lhsIdx_val_of_single rfl _ _).trans hk)
  have er : dot_S256x3_S3x1344_S256x1344_1_0_0_1_n_n.rhsIdx (ix2 p c) ((contrEquiv1 dot_S256x3_S3x1344_S256x1344_1_0_0_1_n_n 3 rfl rfl).symm k) = ix2 k c :=
    funext fun a => Fin.ext (by
      match a with
      | ⟨0, _⟩ => exact (dot_S256x3_S3x1344_S256x1344_1_0_0_1_n_n.rhsIdx_val_of_single rfl _ _).trans hk
      | ⟨1, _⟩ =>
        show (dot_S256x3_S3x1344_S256x1344_1_0_0_1_n_n.rhsIdx (ix2 p c) ((contrEquiv1 dot_S256x3_S3x1344_S256x1344_1_0_0_1_n_n 3 rfl rfl).symm k) 1).val = c.val
        unfold DotDims.rhsIdx
        rw [dif_neg (show ¬(1 : Fin S3x1344.rank) ∈ dot_S256x3_S3x1344_S256x1344_1_0_0_1_n_n.rhsBatch by decide),
          dif_pos (show (1 : Fin S3x1344.rank) ∈ dot_S256x3_S3x1344_S256x1344_1_0_0_1_n_n.rhsNonContracting by decide)]
        rfl)
  rw [el, er]
  rw [shapeCast_self]
  exact congrArg (· * P5 (ix2 k c)) (samples_at P2 P4 p k)

/-! ## The input projection of one gate

Each gate's input term is a concatenation of two 448-wide column slices, at the same offset, of the coarse and of the fine
projection: column `q` of it lies in operand `q / 448` at column `q % 448`, which is what `sideBySide` says with a
comparison instead of a quotient. -/

/-- Operand `n = q / 448` of the concatenated slices at offset `off`, read at row `p` and column `q % 448`, is entry
    `q` of the gate's input projection. -/
theorem inProj_at (P2 : Vec Ideal S256x2 .f32) (P3 : Vec Ideal S2x1344 .bf16) (P4 : Vec Ideal S256x1 .f32)
    (P5 : Vec Ideal S3x1344 .bf16) (p : Fin 256) (q : Fin 896) (off : Nat) (hoff : off + 448 ≤ 1344)
    (hs : S256x1344.Slices ![0, off] S256x448) (C : Fin 2 → Vec Ideal S256x448 .f32)
    (hC0 : C ⟨0, by decide⟩ = extractStridedSlice S256x448 ![0, off] (k0_pay5 P2 P3) hs)
    (hC1 : C ⟨1, by decide⟩ = extractStridedSlice S256x448 ![0, off] (k0_pay6 P2 P4 P5) hs)
    (n : Fin 2) (hn : n.val = q.val / 448) (i : S256x448.Idx) (hi0 : (i 0).val = p.val)
    (hi1 : (i 1).val = q.val % 448) :
    C n i = inProj (fun k => P2 (ix2 p k)) (P4 (ix2 p 0)) (fun k a => P3 (ix2 k a)) (fun k a => P5 (ix2 k a)) off hoff q := by
  have hq := q.isLt
  unfold inProj sideBySide
  by_cases h : q.val < 448
  · rw [dif_pos h]
    have hn0 : n = ⟨0, by decide⟩ := Fin.ext (by rw [hn]; show q.val / 448 = 0; omega)
    rw [hn0, hC0]
    refine (extractStridedSlice_apply ![0, off] _ hs i (ix2 p (⟨off + q.val, by omega⟩ : Fin 1344)) (fun a => match a with
      | ⟨0, _⟩ => by show p.val = 0 + (i 0).val; omega
      | ⟨1, _⟩ => by show off + q.val = off + (i 1).val; omega)).trans ?_
    exact coarse_proj_at P2 P3 p _
  · rw [dif_neg h]
    have hn1 : n = ⟨1, by decide⟩ := Fin.ext (by rw [hn]; show q.val / 448 = 1; omega)
    rw [hn1, hC1]
    refine (extractStridedSlice_apply ![0, off] _ hs i (ix2 p (⟨off + (q.val - 448), by omega⟩ : Fin 1344)) (fun a => match a with
      | ⟨0, _⟩ => by show p.val = 0 + (i 0).val; omega
      | ⟨1, _⟩ => by show off + (q.val - 448) = off + (i 1).val; omega)).trans ?_
    exact fine_proj_at P2 P4 P5 p _

/-- The body's new hidden state at row `p`, column `q` of a block is the row function of row `p` of the three batched
    blocks and of the whole weight blocks (`P0` the previous hidden state, `P1` the recurrent weights, `P2` the previous
    samples, `P3` the coarse input weights, `P4` the current coarse sample, `P5` the fine input weights, `P6 P7 P8` the
    three bias rows). -/
theorem hidden_at (P0 : Vec Ideal S256x896 .f32) (P1 : Vec Ideal S896x2688 .bf16) (P2 : Vec Ideal S256x2 .f32)
    (P3 : Vec Ideal S2x1344 .bf16) (P4 : Vec Ideal S256x1 .f32) (P5 : Vec Ideal S3x1344 .bf16)
    (P6 P7 P8 : Vec Ideal S1x896 .f32) (p : Fin 256) (q : Fin 896) :
    k0_pay12 P0 (k0_pay3 P0 P1) (k0_pay4 P0 P1) (k0_pay7 P2 P4 P3 P5) (k0_pay8 P2 P4 P3 P5) (k0_pay9 P7) (k0_pay10 P8)
        (k0_pay11 P2 P0 P4 P1 P3 P5 P6) (ix2 p q)
      = hiddenRow (fun k => P2 (ix2 p k)) (fun k => P0 (ix2 p k)) (P4 (ix2 p 0))
          (fun k a => P1 (ix2 k a)) (fun k a => P3 (ix2 k a)) (fun k a => P5 (ix2 k a))
          (fun a => P6 (ix2 0 a)) (fun a => P7 (ix2 0 a)) (fun a => P8 (ix2 0 a)) q := by
  have hq := q.isLt
  rw [Value.piece19_0 P0 P1 P2 P3 P4 P5 P6 P7 P8 (ix2 p q)]
  -- the store's rectangle is the whole block: its index map is the identity
  have hx : r0_1.idx (ix2 p q) = ix2 p q := funext fun a => Fin.ext (by
    match a with
    | ⟨0, _⟩ => show 0 + 1 * p.val = p.val; omega
    | ⟨1, _⟩ => show 0 + 1 * q.val = q.val; omega)
  rw [hx]
  -- the recurrent product at columns q, 896 + q, 1792 + q
  have eRu : ∀ i : S256x2688.Idx, (i 0).val = p.val → (i 1).val = q.val →
      k0_pay2 P0 P1 i = rowDot (fun k => P0 (ix2 p k)) (fun k a => P1 (ix2 k a)) ⟨q.val, by omega⟩ := fun i h0 h1 =>
    (congrArg (k0_pay2 P0 P1) (funext fun a => Fin.ext (by
      match a with
      | ⟨0, _⟩ => exact h0
      | ⟨1, _⟩ => exact h1))).trans (recur_at P0 P1 p _)
  have r0 := eRu (Value.ix19_0 (ix2 p q)) rfl rfl
  have r4 := eRu (Value.ix19_4 (ix2 p q)) rfl rfl
  have r7 : k0_pay2 P0 P1 (Value.ix19_7 (ix2 p q))
      = rowDot (fun k => P0 (ix2 p k)) (fun k a => P1 (ix2 k a)) ⟨896 + q.val, by omega⟩ :=
    (congrArg (k0_pay2 P0 P1) (funext fun a => Fin.ext (by
      match a with
      | ⟨0, _⟩ => rfl
      | ⟨1, _⟩ => show q.val + 896 = 896 + q.val; omega))).trans (recur_at P0 P1 p _)
  have r10 : k0_pay2 P0 P1 (Value.ix19_10 (ix2 p q))
      = rowDot (fun k => P0 (ix2 p k)) (fun k a => P1 (ix2 k a)) ⟨1792 + q.val, by omega⟩ :=
    (congrArg (k0_pay2 P0 P1) (funext fun a => Fin.ext (by
      match a with
      | ⟨0, _⟩ => rfl
      | ⟨1, _⟩ => show q.val + 1792 = 1792 + q.val; omega))).trans (recur_at P0 P1 p _)
  -- the three gates' input projections
  have c1 := inProj_at P2 P3 P4 P5 p q 0 (by omega) slices_S256x1344_o0_0_S256x448
    (Value.Cat19_1 P0 P1 P2 P3 P4 P5 P6 P7 P8) rfl rfl (Value.csel19_1 (ix2 p q)) rfl (Value.ix19_1 (ix2 p q)) rfl rfl
  have c5 := inProj_at P2 P3 P4 P5 p q 0 (by omega) slices_S256x1344_o0_0_S256x448
    (Value.Cat19_5 P0 P1 P2 P3 P4 P5 P6 P7 P8) rfl rfl (Value.csel19_5 (ix2 p q)) rfl (Value.ix19_5 (ix2 p q)) rfl rfl
  have c8 := inProj_at P2 P3 P4 P5 p q 448 (by omega) slices_S256x1344_o0_448_S256x448
    (Value.Cat19_8 P0 P1 P2 P3 P4 P5 P6 P7 P8) rfl rfl (Value.csel19_8 (ix2 p q)) rfl (Value.ix19_8 (ix2 p q)) rfl rfl
  have c11 := inProj_at P2 P3 P4 P5 p q 896 (by omega) slices_S256x1344_o0_896_S256x448
    (Value.Cat19_11 P0 P1 P2 P3 P4 P5 P6 P7 P8) rfl rfl (Value.csel19_11 (ix2 p q)) rfl (Value.ix19_11 (ix2 p q)) rfl rfl
  -- the bias rows and the previous hidden state
  have eB : ∀ i : S1x896.Idx, (i 1).val = q.val → i = ix2 0 q := fun i h1 => funext fun a => Fin.ext (by
    match a with
    | ⟨0, _⟩ => show (i 0).val = 0; have h0 : (i 0).val < 1 := (i 0).isLt; omega
    | ⟨1, _⟩ => exact h1)
  have b2 : P6 (Value.ix19_2 (ix2 p q)) = P6 (ix2 0 q) := congrArg P6 (eB _ rfl)
  have b6 : P6 (Value.ix19_6 (ix2 p q)) = P6 (ix2 0 q) := congrArg P6 (eB _ rfl)
  have b9 : P7 (Value.ix19_9 (ix2 p q)) = P7 (ix2 0 q) := congrArg P7 (eB _ rfl)
  have b12 : P8 (Value.ix19_12 (ix2 p q)) = P8 (ix2 0 q) := congrArg P8 (eB _ rfl)
  have h3 : P0 (Value.ix19_3 (ix2 p q)) = P0 (ix2 p q) := congrArg P0 (funext fun a => by
    match a with
    | ⟨0, _⟩ => rfl
    | ⟨1, _⟩ => rfl)
  unfold Value.E19
  simp only [r0, r4, r7, r10, c1, c5, c8, c11, b2, b6, b9, b12, h3]
  rfl

end Cert.GruRows.Ker

end
-- ==== Proof.KerMlp.lean ====
/-
  The kernel body's two perceptron outputs, read one entry at a time.

  Each output takes one half (448 columns) of the hidden state the body has just computed, multiplies it by a weight
  matrix into a zero accumulator, adds a bias row, takes the maximum with zero, multiplies by a second weight matrix into a
  zero accumulator and adds a second bias row. A matrix product into a zero accumulator, read at `(p, j)`, is the plain
  sum over `k` of row `p` of the left factor times column `j` of the right one; a bias row broadcast along the rows is read
  at its column; a change of float format is the identity on extended reals. So row `p` of an output is the perceptron of
  the corresponding half of row `p` of the hidden state, whatever that state is.
-/
import proofs.«168580_j37495064494155_1_alg».proof.Proof.Gen.KernelIdeal.Skeleton
import proofs.«168580_j37495064494155_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GruRows.Ker

open Cert.KernelIdeal Cert.KernelIdeal.Gen Idealize.ShloMosaic Idealize.ShloMosaic.TcCoe
open Idealize.ShloMosaic.ValueIdx Cert.GruRows

/-!
  The two perceptron outputs of the kernel body, read at row `p`, column `j` of a block, over the extended reals.

  Each output is `max(x · W1 + b1, 0) · W2 + b2` where `x` is one half (448 columns) of row `p` of the new hidden
  state. A change of float format is the identity, a cast to the same shape is the identity, a bias row `[1,b]`
  broadcast to `[256,b]` reads the row at column `j`, and a matrix product into the zero accumulator read at `(p, j)`
  is the sum over the contracted coordinate. The hidden state is never opened: only its entries in row `p` are read.
-/

/-- A `[256,448] × [448,448]` product into the zero accumulator, read at row `p`, column `j`: the sum over the
    contracted coordinate `k` of the left operand at `(p, k)` times the right operand at `(k, j)`. -/
theorem matmul_hidden_at (l : FVec Ideal S256x448 .bf16) (r : FVec Ideal S448x448 .bf16) (p : Fin 256) (j : Fin 448) :
    matmul dot_S256x448_S448x448_S256x448_1_0_0_1_n_n none l r (constant (F := Ideal) S256x448 .f32 0x00000000#32) (ix2 p j)
      = ∑ k : Fin 448, l (ix2 p k) * r (ix2 k j) := by
  refine (Ideal.matmul_constant_zero_apply dot_S256x448_S448x448_S256x448_1_0_0_1_n_n none l r (ix2 p j)).trans ?_
  rw [← Equiv.sum_comp (ValueIdx.contrEquiv1 dot_S256x448_S448x448_S256x448_1_0_0_1_n_n 448 rfl rfl).symm]
  refine Finset.sum_congr rfl fun k _ => ?_
  have hk := ValueIdx.contrEquiv1_symm_val dot_S256x448_S448x448_S256x448_1_0_0_1_n_n 448 rfl rfl k
  have el : dot_S256x448_S448x448_S256x448_1_0_0_1_n_n.lhsIdx (ix2 p j) ((ValueIdx.contrEquiv1 dot_S256x448_S448x448_S256x448_1_0_0_1_n_n 448 rfl rfl).symm k) = ix2 p k :=
    funext fun a => Fin.ext (by
      match a with
      | ⟨0, _⟩ =>
        show (dot_S256x448_S448x448_S256x448_1_0_0_1_n_n.lhsIdx (ix2 p j) _ 0).val = p.val
        unfold DotDims.lhsIdx
        rw [dif_neg (show ¬(0 : Fin S256x448.rank) ∈ dot_S256x448_S448x448_S256x448_1_0_0_1_n_n.lhsBatch by decide),
          dif_pos (show (0 : Fin S256x448.rank) ∈ dot_S256x448_S448x448_S256x448_1_0_0_1_n_n.lhsNonContracting by decide)]
        rfl
      | ⟨1, _⟩ => exact (dot_S256x448_S448x448_S256x448_1_0_0_1_n_n.lhsIdx_val_of_single rfl (ix2 p j) _).trans hk)
  have er : dot_S256x448_S448x448_S256x448_1_0_0_1_n_n.rhsIdx (ix2 p j) ((ValueIdx.contrEquiv1 dot_S256x448_S448x448_S256x448_1_0_0_1_n_n 448 rfl rfl).symm k) = ix2 k j :=
    funext fun a => Fin.ext (by
      match a with
      | ⟨0, _⟩ => exact (dot_S256x448_S448x448_S256x448_1_0_0_1_n_n.rhsIdx_val_of_single rfl (ix2 p j) _).trans hk
      | ⟨1, _⟩ =>
        show (dot_S256x448_S448x448_S256x448_1_0_0_1_n_n.rhsIdx (ix2 p j) _ 1).val = j.val
        unfold DotDims.rhsIdx
        rw [dif_neg (show ¬(1 : Fin S448x448.rank) ∈ dot_S256x448_S448x448_S256x448_1_0_0_1_n_n.rhsBatch by decide),
          dif_pos (show (1 : Fin S448x448.rank) ∈ dot_S256x448_S448x448_S256x448_1_0_0_1_n_n.rhsNonContracting by decide)]
        rfl)
  rw [el, er]

/-- A `[256,448] × [448,256]` product into the zero accumulator, read at row `p`, column `j`: the sum over the
    contracted coordinate `k` of the left operand at `(p, k)` times the right operand at `(k, j)`. -/
theorem matmul_out_at (l : FVec Ideal S256x448 .bf16) (r : FVec Ideal S448x256 .bf16) (p : Fin 256) (j : Fin 256) :
    matmul dot_S256x448_S448x256_S256x256_1_0_0_1_n_n none l r (constant (F := Ideal) S256x256 .f32 0x00000000#32) (ix2 p j)
      = ∑ k : Fin 448, l (ix2 p k) * r (ix2 k j) := by
  refine (Ideal.matmul_constant_zero_apply dot_S256x448_S448x256_S256x256_1_0_0_1_n_n none l r (ix2 p j)).trans ?_
  rw [← Equiv.sum_comp (ValueIdx.contrEquiv1 dot_S256x448_S448x256_S256x256_1_0_0_1_n_n 448 rfl rfl).symm]
  refine Finset.sum_congr rfl fun k _ => ?_
  have hk := ValueIdx.contrEquiv1_symm_val dot_S256x448_S448x256_S256x256_1_0_0_1_n_n 448 rfl rfl k
  have el : dot_S256x448_S448x256_S256x256_1_0_0_1_n_n.lhsIdx (ix2 p j) ((ValueIdx.contrEquiv1 dot_S256x448_S448x256_S256x256_1_0_0_1_n_n 448 rfl rfl).symm k) = ix2 p k :=
    funext fun a => Fin.ext (by
      match a with
      | ⟨0, _⟩ =>
        show (dot_S256x448_S448x256_S256x256_1_0_0_1_n_n.lhsIdx (ix2 p j) _ 0).val = p.val
        unfold DotDims.lhsIdx
        rw [dif_neg (show ¬(0 : Fin S256x448.rank) ∈ dot_S256x448_S448x256_S256x256_1_0_0_1_n_n.lhsBatch by decide),
          dif_pos (show (0 : Fin S256x448.rank) ∈ dot_S256x448_S448x256_S256x256_1_0_0_1_n_n.lhsNonContracting by decide)]
        rfl
      | ⟨1, _⟩ => exact (dot_S256x448_S448x256_S256x256_1_0_0_1_n_n.lhsIdx_val_of_single rfl (ix2 p j) _).trans hk)
  have er : dot_S256x448_S448x256_S256x256_1_0_0_1_n_n.rhsIdx (ix2 p j) ((ValueIdx.contrEquiv1 dot_S256x448_S448x256_S256x256_1_0_0_1_n_n 448 rfl rfl).symm k) = ix2 k j :=
    funext fun a => Fin.ext (by
      match a with
      | ⟨0, _⟩ => exact (dot_S256x448_S448x256_S256x256_1_0_0_1_n_n.rhsIdx_val_of_single rfl (ix2 p j) _).trans hk
      | ⟨1, _⟩ =>
        show (dot_S256x448_S448x256_S256x256_1_0_0_1_n_n.rhsIdx (ix2 p j) _ 1).val = j.val
        unfold DotDims.rhsIdx
        rw [dif_neg (show ¬(1 : Fin S448x256.rank) ∈ dot_S256x448_S448x256_S256x256_1_0_0_1_n_n.rhsBatch by decide),
          dif_pos (show (1 : Fin S448x256.rank) ∈ dot_S256x448_S448x256_S256x256_1_0_0_1_n_n.rhsNonContracting by decide)]
        rfl)
  rw [el, er]

/-- The body's coarse output at row `p`, column `j` of a block is the perceptron of the first half of row `p` of the
    hidden state the body computed (`k0_pay12`), whatever that state is. -/
theorem coarse_at (v1 : Vec Ideal S256x896 .f32) (v8 v9 v26 v27 : FVec Ideal S256x896 .f32)
    (v31 v33 : FVec Ideal S1x896 .f32) (v37 : FVec Ideal S256x896 .f32)
    (v56 : Vec Ideal S448x448 .bf16) (v59 : Vec Ideal S1x448 .f32) (v66 : Vec Ideal S448x256 .bf16)
    (v69 : Vec Ideal S1x256 .f32) (p : Fin 256) (j : Fin 256) :
    k0_pay13 v1 v8 v9 v26 v27 v31 v33 v37 v56 v59 v66 v69 (ix2 p j)
      = mlpRow (loHalf (fun q => k0_pay12 v1 v8 v9 v26 v27 v31 v33 v37 (ix2 p q)))
          (fun k a => v56 (ix2 k a)) (fun a => v59 (ix2 0 a)) (fun k a => v66 (ix2 k a)) (fun a => v69 (ix2 0 a)) j := by
  unfold k0_pay13
  -- the hidden state enters only through its entries: from here on it is an arbitrary [256,896] array
  generalize k0_pay12 v1 v8 v9 v26 v27 v31 v33 v37 = hid
  -- casts to the same shape are identities; the output is the second product plus the bias row at column j
  simp only [shapeCast_self]
  rw [addf_apply, matmul_out_at, broadcastTo_1b_ab_apply]
  unfold mlpRow rowDot
  refine congrArg (· + v69 (ix2 0 j)) ?_
  -- term by term in the sum over the 448 intermediate coordinates k
  refine Finset.sum_congr rfl fun k _ => ?_
  -- the intermediate entry k: the maximum with the zero word of the first product plus the bias row at column k
  rw [truncf_apply, maximumf_apply, addf_apply, broadcast_apply, matmul_hidden_at, broadcastTo_1b_ab_apply]
  refine congrArg (fun t => max (t + v59 (ix2 0 k)) zeroWord * v66 (ix2 k j)) ?_
  -- term by term in the inner sum: the first half of row p, entry k', is the hidden state at column k'
  refine Finset.sum_congr rfl fun k' _ => ?_
  refine congrArg (· * v56 (ix2 k' k)) ?_
  rw [truncf_apply]
  unfold loHalf
  exact extractStridedSlice_apply ![0, 0] hid slices_S256x896_o0_0_S256x448 (ix2 p k')
    (ix2 p ⟨k'.val, by have := k'.isLt; omega⟩) (fun a => match a with
      | ⟨0, _⟩ => by show p.val = 0 + p.val; omega
      | ⟨1, _⟩ => by show k'.val = 0 + k'.val; omega)

/-- The body's fine output at row `p`, column `j` of a block is the perceptron of the second half of row `p` of the
    hidden state the body computed. -/
theorem fine_at (v1 : Vec Ideal S256x896 .f32) (v8 v9 v26 v27 : FVec Ideal S256x896 .f32)
    (v31 v33 : FVec Ideal S1x896 .f32) (v37 : FVec Ideal S256x896 .f32)
    (v75 : Vec Ideal S448x448 .bf16) (v78 : Vec Ideal S1x448 .f32) (v85 : Vec Ideal S448x256 .bf16)
    (v88 : Vec Ideal S1x256 .f32) (p : Fin 256) (j : Fin 256) :
    k0_pay1 (k0_pay14 v1 v8 v9 v26 v27 v31 v33 v37) (k0_pay15 v75) (constant S256x448 .f32 0x00000000#32) v78 v85 v88 (ix2 p j)
      = mlpRow (hiHalf (fun q => k0_pay12 v1 v8 v9 v26 v27 v31 v33 v37 (ix2 p q)))
          (fun k a => v75 (ix2 k a)) (fun a => v78 (ix2 0 a)) (fun k a => v85 (ix2 k a)) (fun a => v88 (ix2 0 a)) j := by
  unfold k0_pay1 k0_pay14 k0_pay15
  -- the hidden state enters only through its entries: from here on it is an arbitrary [256,896] array
  generalize k0_pay12 v1 v8 v9 v26 v27 v31 v33 v37 = hid
  -- casts to the same shape are identities; the output is the second product plus the bias row at column j
  simp only [shapeCast_self]
  rw [addf_apply, matmul_out_at, broadcastTo_1b_ab_apply]
  unfold mlpRow rowDot
  refine congrArg (· + v88 (ix2 0 j)) ?_
  -- term by term in the sum over the 448 intermediate coordinates k
  refine Finset.sum_congr rfl fun k _ => ?_
  -- the intermediate entry k: the maximum with the zero word of the first product plus the bias row at column k
  rw [truncf_apply, maximumf_apply, addf_apply, broadcast_apply, matmul_hidden_at, broadcastTo_1b_ab_apply]
  refine congrArg (fun t => max (t + v78 (ix2 0 k)) zeroWord * v85 (ix2 k j)) ?_
  -- term by term in the inner sum: the second half of row p, entry k', is the hidden state at column 448 + k'
  refine Finset.sum_congr rfl fun k' _ => ?_
  refine congrArg (· * v75 (ix2 k' k)) ?_
  rw [truncf_apply]
  unfold hiHalf
  exact extractStridedSlice_apply ![0, 448] hid slices_S256x896_o0_448_S256x448 (ix2 p k')
    (ix2 p ⟨448 + k'.val, by have := k'.isLt; omega⟩) (fun a => match a with
      | ⟨0, _⟩ => by show p.val = 0 + p.val; omega
      | ⟨1, _⟩ => by show 448 + k'.val = 448 + k'.val; omega)

end Cert.GruRows.Ker

end
-- ==== Proof.Cover.lean ====
/-
  The blocks the 128 grid points write back cover each output array.

  Point `t` writes back rows `256·t … 256·t + 255` and every column of each of the three output arrays, and
  `128 · 256 = 32768` is the number of rows. So an index with row `r` lies in the block of point `r / 256`.
-/
import proofs.«168580_j37495064494155_1_alg».proof.Proof.BlockReads

noncomputable section

open Idealize.ShloMosaic Idealize.ShloMosaic.TcCoe Idealize.SL.Sem
open Idealize.ShloMosaic.Pipeline (Dat)
open Idealize.ShloMosaic.ValueIdx

namespace Cert.GruRows.Blk

open Cert.KernelIdeal Cert.KernelIdeal.Gen Cert.KernelIdeal.Value Cert.GruRows

variable (m : (ℓ : Loc nD τ sig) → Buf (Elt Ideal) ℓ) (ρ : Dev nD → PrngReg)

/-! ## The output blocks cover their arrays

The grid has 128 points and point `t` writes rows `256·t … 256·t + 255`, all columns, of each of the three output arrays.
An array has `32768 = 128 · 256` rows, so row `r` is written by point `r / 256`: `256 · (r / 256) ≤ r < 256 · (r / 256) + 256`. -/

/-- An index of the hidden-state array lies in point `t`'s block iff, on each axis, its coordinate lies in the block's range:
    from (block index) × (block size) up to one block size further. -/
theorem mem_blk19 (t : Fin cfg0.N) (i : S32768x896.Idx) :
    i ∈ ((cfg0.win 19).blk t).view.set ↔ ∀ a : Fin 2, win0_19.index t a * S256x896.size a ≤ (i a).val ∧ (i a).val < win0_19.index t a * S256x896.size a + S256x896.size a := by
  show i ∈ ((View.whole main_v14_2).slice (win0_19.rect t)).set ↔ _
  rw [View.set_slice_whole, Rect.mem_set_unit]
  exact Iff.rfl

/-- An index of the coarse output array lies in point `t`'s block iff, on each axis, its coordinate lies in the block's range:
    from (block index) × (block size) up to one block size further. -/
theorem mem_blk17 (t : Fin cfg0.N) (i : S32768x256.Idx) :
    i ∈ ((cfg0.win 17).blk t).view.set ↔ ∀ a : Fin 2, win0_17.index t a * S256x256.size a ≤ (i a).val ∧ (i a).val < win0_17.index t a * S256x256.size a + S256x256.size a := by
  show i ∈ ((View.whole main_v14_0).slice (win0_17.rect t)).set ↔ _
  rw [View.set_slice_whole, Rect.mem_set_unit]
  exact Iff.rfl

/-- An index of the fine output array lies in point `t`'s block iff, on each axis, its coordinate lies in the block's range:
    from (block index) × (block size) up to one block size further. -/
theorem mem_blk18 (t : Fin cfg0.N) (i : S32768x256.Idx) :
    i ∈ ((cfg0.win 18).blk t).view.set ↔ ∀ a : Fin 2, win0_18.index t a * S256x256.size a ≤ (i a).val ∧ (i a).val < win0_18.index t a * S256x256.size a + S256x256.size a := by
  show i ∈ ((View.whole main_v14_1).slice (win0_18.rect t)).set ↔ _
  rw [View.set_slice_whole, Rect.mem_set_unit]
  exact Iff.rfl

/-- Every index of the hidden-state array lies in the block of the point that owns its row: point `row / 256`. -/
theorem cover19 (c : Dev nD) : ∀ i : S32768x896.Idx,
    ∃ t : Fin cfg0.N, (cfg0.win 19).flush t = true ∧ i ∈ ((cfg0.win 19).blk t).view.set := by
  intro i
  have hi0 : (i 0).val < 32768 := (i 0).isLt
  have hi1 : (i 1).val < 896 := (i 1).isLt
  have hN : cfg0.N = 128 := N_0
  have ht : (i 0).val / 256 < cfg0.N := by rw [hN]; omega
  obtain ⟨-, -, -, -, -, -, -, -, -, -, e0, e1⟩ := idx_tiled ⟨(i 0).val / 256, ht⟩
  have e0' : win0_19.index ⟨(i 0).val / 256, ht⟩ (0 : Fin 2) = (i 0).val / 256 := e0
  refine ⟨⟨(i 0).val / 256, ht⟩, flush0_19 _, ?_⟩
  rw [mem_blk19]
  intro a
  match a with
  | ⟨0, _⟩ =>
    show win0_19.index ⟨(i 0).val / 256, ht⟩ (0 : Fin 2) * 256 ≤ (i 0).val
      ∧ (i 0).val < win0_19.index ⟨(i 0).val / 256, ht⟩ (0 : Fin 2) * 256 + 256
    rw [e0']; omega
  | ⟨1, _⟩ =>
    show win0_19.index ⟨(i 0).val / 256, ht⟩ (1 : Fin 2) * 896 ≤ (i 1).val
      ∧ (i 1).val < win0_19.index ⟨(i 0).val / 256, ht⟩ (1 : Fin 2) * 896 + 896
    rw [e1]; omega

/-- Every index of the coarse output array lies in the block of point `row / 256`. -/
theorem cover17 (c : Dev nD) : ∀ i : S32768x256.Idx,
    ∃ t : Fin cfg0.N, (cfg0.win 17).flush t = true ∧ i ∈ ((cfg0.win 17).blk t).view.set := by
  intro i
  have hi0 : (i 0).val < 32768 := (i 0).isLt
  have hi1 : (i 1).val < 256 := (i 1).isLt
  have hN : cfg0.N = 128 := N_0
  have ht : (i 0).val / 256 < cfg0.N := by rw [hN]; omega
  obtain ⟨-, -, -, -, -, -, e0, e1, -, -, -, -⟩ := idx_tiled ⟨(i 0).val / 256, ht⟩
  have e0' : win0_17.index ⟨(i 0).val / 256, ht⟩ (0 : Fin 2) = (i 0).val / 256 := e0
  refine ⟨⟨(i 0).val / 256, ht⟩, flush0_17 _, ?_⟩
  rw [mem_blk17]
  intro a
  match a with
  | ⟨0, _⟩ =>
    show win0_17.index ⟨(i 0).val / 256, ht⟩ (0 : Fin 2) * 256 ≤ (i 0).val
      ∧ (i 0).val < win0_17.index ⟨(i 0).val / 256, ht⟩ (0 : Fin 2) * 256 + 256
    rw [e0']; omega
  | ⟨1, _⟩ =>
    show win0_17.index ⟨(i 0).val / 256, ht⟩ (1 : Fin 2) * 256 ≤ (i 1).val
      ∧ (i 1).val < win0_17.index ⟨(i 0).val / 256, ht⟩ (1 : Fin 2) * 256 + 256
    rw [e1]; omega

/-- Every index of the fine output array lies in the block of point `row / 256`. -/
theorem cover18 (c : Dev nD) : ∀ i : S32768x256.Idx,
    ∃ t : Fin cfg0.N, (cfg0.win 18).flush t = true ∧ i ∈ ((cfg0.win 18).blk t).view.set := by
  intro i
  have hi0 : (i 0).val < 32768 := (i 0).isLt
  have hi1 : (i 1).val < 256 := (i 1).isLt
  have hN : cfg0.N = 128 := N_0
  have ht : (i 0).val / 256 < cfg0.N := by rw [hN]; omega
  obtain ⟨-, -, -, -, -, -, -, -, e0, e1, -, -⟩ := idx_tiled ⟨(i 0).val / 256, ht⟩
  have e0' : win0_18.index ⟨(i 0).val / 256, ht⟩ (0 : Fin 2) = (i 0).val / 256 := e0
  refine ⟨⟨(i 0).val / 256, ht⟩, flush0_18 _, ?_⟩
  rw [mem_blk18]
  intro a
  match a with
  | ⟨0, _⟩ =>
    show win0_18.index ⟨(i 0).val / 256, ht⟩ (0 : Fin 2) * 256 ≤ (i 0).val
      ∧ (i 0).val < win0_18.index ⟨(i 0).val / 256, ht⟩ (0 : Fin 2) * 256 + 256
    rw [e0']; omega
  | ⟨1, _⟩ =>
    show win0_18.index ⟨(i 0).val / 256, ht⟩ (1 : Fin 2) * 256 ≤ (i 1).val
      ∧ (i 1).val < win0_18.index ⟨(i 0).val / 256, ht⟩ (1 : Fin 2) * 256 + 256
    rw [e1]; omega

end Cert.GruRows.Blk

end
-- ==== Proof.Arrays.lean ====
/-
  The kernel's three output arrays after the run.

  At grid point `t` the body works on 256 batch rows. Row `p` of what it stores — the new hidden state, and the two
  perceptron outputs computed from its halves — is the row function of row `p` of the three batched input blocks and of
  the weight blocks. Row `p` of a batched block is row `256·t + p` of its argument, and a weight block is its argument,
  so point `t` writes back rows `256·t … 256·t + 255` of the array-level function of the arguments. The 128 points'
  blocks cover each output array, so each array ends holding that function.
-/
import proofs.«168580_j37495064494155_1_alg».proof.Proof.BlockReads
import proofs.«168580_j37495064494155_1_alg».proof.Proof.ArraySpec
import proofs.«168580_j37495064494155_1_alg».proof.Proof.KerHidden
import proofs.«168580_j37495064494155_1_alg».proof.Proof.KerMlp
import proofs.«168580_j37495064494155_1_alg».proof.Proof.Cover

noncomputable section

open Idealize.ShloMosaic Idealize.ShloMosaic.TcCoe Idealize.SL.Sem
open Idealize.ShloMosaic.Pipeline (Dat)
open Idealize.ShloMosaic.ValueIdx

namespace Cert.GruRows.Blk

open Cert.KernelIdeal Cert.KernelIdeal.Gen Cert.KernelIdeal.Value Cert.GruRows

variable (m : (ℓ : Loc nD τ sig) → Buf (Elt Ideal) ℓ) (ρ : Dev nD → PrngReg)

/-- Argument 0 of the kernel on core `c`, as a function of its index. -/
abbrev A0 (c : Dev nD) : S32768x2.Idx → EReal := m ((c : Thread nD τ).loc main_arg0)
/-- Argument 1 of the kernel on core `c`, as a function of its index. -/
abbrev A1 (c : Dev nD) : S32768x896.Idx → EReal := m ((c : Thread nD τ).loc main_arg1)
/-- Argument 2 of the kernel on core `c`, as a function of its index. -/
abbrev A2 (c : Dev nD) : S32768x1.Idx → EReal := m ((c : Thread nD τ).loc main_arg2)
/-- Argument 3 of the kernel on core `c`, as a function of its index. -/
abbrev A3 (c : Dev nD) : S896x2688.Idx → EReal := m ((c : Thread nD τ).loc main_arg3)
/-- Argument 4 of the kernel on core `c`, as a function of its index. -/
abbrev A4 (c : Dev nD) : S2x1344.Idx → EReal := m ((c : Thread nD τ).loc main_arg4)
/-- Argument 5 of the kernel on core `c`, as a function of its index. -/
abbrev A5 (c : Dev nD) : S3x1344.Idx → EReal := m ((c : Thread nD τ).loc main_arg5)
/-- Argument 6 of the kernel on core `c`, as a function of its index. -/
abbrev A6 (c : Dev nD) : S448x448.Idx → EReal := m ((c : Thread nD τ).loc main_arg6)
/-- Argument 7 of the kernel on core `c`, as a function of its index. -/
abbrev A7 (c : Dev nD) : S448.Idx → EReal := m ((c : Thread nD τ).loc main_arg7)
/-- Argument 8 of the kernel on core `c`, as a function of its index. -/
abbrev A8 (c : Dev nD) : S448x256.Idx → EReal := m ((c : Thread nD τ).loc main_arg8)
/-- Argument 9 of the kernel on core `c`, as a function of its index. -/
abbrev A9 (c : Dev nD) : S256.Idx → EReal := m ((c : Thread nD τ).loc main_arg9)
/-- Argument 10 of the kernel on core `c`, as a function of its index. -/
abbrev A10 (c : Dev nD) : S448x448.Idx → EReal := m ((c : Thread nD τ).loc main_arg10)
/-- Argument 11 of the kernel on core `c`, as a function of its index. -/
abbrev A11 (c : Dev nD) : S448.Idx → EReal := m ((c : Thread nD τ).loc main_arg11)
/-- Argument 12 of the kernel on core `c`, as a function of its index. -/
abbrev A12 (c : Dev nD) : S448x256.Idx → EReal := m ((c : Thread nD τ).loc main_arg12)
/-- Argument 13 of the kernel on core `c`, as a function of its index. -/
abbrev A13 (c : Dev nD) : S256.Idx → EReal := m ((c : Thread nD τ).loc main_arg13)
/-- Argument 14 of the kernel on core `c`, as a function of its index. -/
abbrev A14 (c : Dev nD) : S896.Idx → EReal := m ((c : Thread nD τ).loc main_arg14)
/-- Argument 15 of the kernel on core `c`, as a function of its index. -/
abbrev A15 (c : Dev nD) : S896.Idx → EReal := m ((c : Thread nD τ).loc main_arg15)
/-- Argument 16 of the kernel on core `c`, as a function of its index. -/
abbrev A16 (c : Dev nD) : S896.Idx → EReal := m ((c : Thread nD τ).loc main_arg16)

/-! ## One row of what point `t` stores -/

/-- Row `p` of the hidden state point `t` stores is the hidden-state row of batch row `256·t + p`. -/
theorem blk_hidden_at (c : Dev nD) (t : Fin cfg0.N) (p : Fin 256) (q : Fin 896) (P : Fin 32768)
    (hP : P.val = 256 * t.val + p.val) :
    k0_pay12 (iblk m c 1 t) (k0_pay3 (iblk m c 1 t) (iblk m c 3 t)) (k0_pay4 (iblk m c 1 t) (iblk m c 3 t))
        (k0_pay7 (iblk m c 0 t) (iblk m c 2 t) (iblk m c 4 t) (iblk m c 5 t)) (k0_pay8 (iblk m c 0 t) (iblk m c 2 t) (iblk m c 4 t) (iblk m c 5 t))
        (k0_pay9 (iblk m c 15 t)) (k0_pay10 (iblk m c 16 t))
        (k0_pay11 (iblk m c 0 t) (iblk m c 1 t) (iblk m c 2 t) (iblk m c 3 t) (iblk m c 4 t) (iblk m c 5 t) (iblk m c 14 t)) (ix2 p q)
      = hidAt (A0 m c) (A1 m c) (A2 m c) (A3 m c) (A4 m c) (A5 m c) (A14 m c) (A15 m c) (A16 m c) P q := by
  refine (Ker.hidden_at (iblk m c 1 t) (iblk m c 3 t) (iblk m c 0 t) (iblk m c 4 t) (iblk m c 2 t) (iblk m c 5 t) (iblk m c 14 t) (iblk m c 15 t) (iblk m c 16 t) p q).trans ?_
  unfold hidAt
  exact hiddenRow_congr
    (fun k => iblk0_apply m c t (ix2 p k) (ix2 P k) hP rfl)
    (fun k => iblk1_apply m c t (ix2 p k) (ix2 P k) hP rfl)
    (iblk2_apply m c t (ix2 p 0) (ix2 P 0) hP rfl)
    (fun k a => iblk3_apply m c t k a) (fun k a => iblk4_apply m c t k a) (fun k a => iblk5_apply m c t k a)
    (fun a => iblk14_apply m c t a) (fun a => iblk15_apply m c t a) (fun a => iblk16_apply m c t a) q

/-- Row `p` of the coarse output point `t` stores is the coarse output of batch row `256·t + p`. -/
theorem blk_coarse_at (c : Dev nD) (t : Fin cfg0.N) (p : Fin 256) (j : Fin 256) (P : Fin 32768)
    (hP : P.val = 256 * t.val + p.val) :
    k0_pay13 (iblk m c 1 t) (k0_pay3 (iblk m c 1 t) (iblk m c 3 t)) (k0_pay4 (iblk m c 1 t) (iblk m c 3 t))
        (k0_pay7 (iblk m c 0 t) (iblk m c 2 t) (iblk m c 4 t) (iblk m c 5 t)) (k0_pay8 (iblk m c 0 t) (iblk m c 2 t) (iblk m c 4 t) (iblk m c 5 t))
        (k0_pay9 (iblk m c 15 t)) (k0_pay10 (iblk m c 16 t))
        (k0_pay11 (iblk m c 0 t) (iblk m c 1 t) (iblk m c 2 t) (iblk m c 3 t) (iblk m c 4 t) (iblk m c 5 t) (iblk m c 14 t))
        (iblk m c 6 t) (iblk m c 7 t) (iblk m c 8 t) (iblk m c 9 t) (ix2 p j)
      = coarseAt (A0 m c) (A1 m c) (A2 m c) (A3 m c) (A4 m c) (A5 m c) (A6 m c) (A7 m c) (A8 m c) (A9 m c) (A14 m c) (A15 m c) (A16 m c) P j := by
  refine (Ker.coarse_at (iblk m c 1 t) (k0_pay3 (iblk m c 1 t) (iblk m c 3 t)) (k0_pay4 (iblk m c 1 t) (iblk m c 3 t))
        (k0_pay7 (iblk m c 0 t) (iblk m c 2 t) (iblk m c 4 t) (iblk m c 5 t)) (k0_pay8 (iblk m c 0 t) (iblk m c 2 t) (iblk m c 4 t) (iblk m c 5 t))
        (k0_pay9 (iblk m c 15 t)) (k0_pay10 (iblk m c 16 t))
        (k0_pay11 (iblk m c 0 t) (iblk m c 1 t) (iblk m c 2 t) (iblk m c 3 t) (iblk m c 4 t) (iblk m c 5 t) (iblk m c 14 t))
    (iblk m c 6 t) (iblk m c 7 t) (iblk m c 8 t) (iblk m c 9 t) p j).trans ?_
  unfold coarseAt
  exact mlpRow_congr_all (loHalf_congr fun q => blk_hidden_at m c t p q P hP)
    (fun k a => iblk6_apply m c t k a) (fun a => iblk7_apply m c t a)
    (fun k a => iblk8_apply m c t k a) (fun a => iblk9_apply m c t a) j

/-- Row `p` of the fine output point `t` stores is the fine output of batch row `256·t + p`. -/
theorem blk_fine_at (c : Dev nD) (t : Fin cfg0.N) (p : Fin 256) (j : Fin 256) (P : Fin 32768)
    (hP : P.val = 256 * t.val + p.val) :
    k0_pay1 (k0_pay14 (iblk m c 1 t) (k0_pay3 (iblk m c 1 t) (iblk m c 3 t)) (k0_pay4 (iblk m c 1 t) (iblk m c 3 t))
        (k0_pay7 (iblk m c 0 t) (iblk m c 2 t) (iblk m c 4 t) (iblk m c 5 t)) (k0_pay8 (iblk m c 0 t) (iblk m c 2 t) (iblk m c 4 t) (iblk m c 5 t))
        (k0_pay9 (iblk m c 15 t)) (k0_pay10 (iblk m c 16 t))
        (k0_pay11 (iblk m c 0 t) (iblk m c 1 t) (iblk m c 2 t) (iblk m c 3 t) (iblk m c 4 t) (iblk m c 5 t) (iblk m c 14 t)))
        (k0_pay15 (iblk m c 10 t)) (constant S256x448 .f32 0x00000000#32) (iblk m c 11 t) (iblk m c 12 t) (iblk m c 13 t) (ix2 p j)
      = fineAt (A0 m c) (A1 m c) (A2 m c) (A3 m c) (A4 m c) (A5 m c) (A10 m c) (A11 m c) (A12 m c) (A13 m c) (A14 m c) (A15 m c) (A16 m c) P j := by
  refine (Ker.fine_at (iblk m c 1 t) (k0_pay3 (iblk m c 1 t) (iblk m c 3 t)) (k0_pay4 (iblk m c 1 t) (iblk m c 3 t))
        (k0_pay7 (iblk m c 0 t) (iblk m c 2 t) (iblk m c 4 t) (iblk m c 5 t)) (k0_pay8 (iblk m c 0 t) (iblk m c 2 t) (iblk m c 4 t) (iblk m c 5 t))
        (k0_pay9 (iblk m c 15 t)) (k0_pay10 (iblk m c 16 t))
        (k0_pay11 (iblk m c 0 t) (iblk m c 1 t) (iblk m c 2 t) (iblk m c 3 t) (iblk m c 4 t) (iblk m c 5 t) (iblk m c 14 t))
    (iblk m c 10 t) (iblk m c 11 t) (iblk m c 12 t) (iblk m c 13 t) p j).trans ?_
  unfold fineAt
  exact mlpRow_congr_all (hiHalf_congr fun q => blk_hidden_at m c t p q P hP)
    (fun k a => iblk10_apply m c t k a) (fun a => iblk11_apply m c t a)
    (fun k a => iblk12_apply m c t k a) (fun a => iblk13_apply m c t a) j

/-! ## What point `t` writes back -/

/-- Point `t` writes back block `t` of the hidden-state array. -/
theorem flushed19_eq (c : Dev nD) (t : Fin cfg0.N) :
    (dats m 0 c).flushed 19 t = ((cfg0.win 19).blk t).view.read (Elt Ideal) (Ghid (A0 m c) (A1 m c) (A2 m c) (A3 m c) (A4 m c) (A5 m c) (A14 m c) (A15 m c) (A16 m c)) := by
  rw [Value.flushed19]
  unfold out0_19
  rw [View.canon_unit_zero hz]
  simp only [View.ld_unit_zero (S := S256x2) hz, View.ld_unit_zero (S := S256x896) hz, View.ld_unit_zero (S := S256x1) hz, View.ld_unit_zero (S := S896x2688) hz, View.ld_unit_zero (S := S2x1344) hz, View.ld_unit_zero (S := S3x1344) hz, View.ld_unit_zero (S := S1x896) hz, View.ld_unit_zero (S := S448x448) hz, View.ld_unit_zero (S := S1x448) hz, View.ld_unit_zero (S := S448x256) hz, View.ld_unit_zero (S := S1x256) hz]
  funext y
  obtain ⟨p, q, rfl⟩ : ∃ (p : Fin 256) (q : Fin 896), y = ix2 p q := ⟨y 0, y 1, eq_ix2 y⟩
  obtain ⟨-, -, -, -, -, -, -, -, -, -, e0, e1⟩ := idx_tiled t
  have hP : 256 * t.val + p.val < 32768 := by have h1 := t.isLt; have h2 := p.isLt; have hN : cfg0.N = 128 := N_0; omega
  rw [View.read_apply]
  have hemb : ((View.whole main_v14_2).slice ((win0 19).rect t)).emb (ix2 p q)
      = ix2 (⟨256 * t.val + p.val, hP⟩ : Fin 32768) q := by
    funext a
    apply Fin.ext
    match a with
    | ⟨0, _⟩ => show win0_19.index t 0 * 256 + 1 * p.val = 256 * t.val + p.val; rw [e0]; omega
    | ⟨1, _⟩ => show win0_19.index t 1 * 896 + 1 * q.val = q.val; rw [e1]; omega
  rw [hemb]
  exact blk_hidden_at m c t p q ⟨256 * t.val + p.val, hP⟩ rfl

/-- Point `t` writes back block `t` of the coarse output array. -/
theorem flushed17_eq (c : Dev nD) (t : Fin cfg0.N) :
    (dats m 0 c).flushed 17 t = ((cfg0.win 17).blk t).view.read (Elt Ideal) (Gcoarse (A0 m c) (A1 m c) (A2 m c) (A3 m c) (A4 m c) (A5 m c) (A6 m c) (A7 m c) (A8 m c) (A9 m c) (A14 m c) (A15 m c) (A16 m c)) := by
  rw [Value.flushed17]
  unfold out0_17
  rw [View.canon_unit_zero hz]
  simp only [View.ld_unit_zero (S := S256x2) hz, View.ld_unit_zero (S := S256x896) hz, View.ld_unit_zero (S := S256x1) hz, View.ld_unit_zero (S := S896x2688) hz, View.ld_unit_zero (S := S2x1344) hz, View.ld_unit_zero (S := S3x1344) hz, View.ld_unit_zero (S := S1x896) hz, View.ld_unit_zero (S := S448x448) hz, View.ld_unit_zero (S := S1x448) hz, View.ld_unit_zero (S := S448x256) hz, View.ld_unit_zero (S := S1x256) hz]
  funext y
  obtain ⟨p, q, rfl⟩ : ∃ (p : Fin 256) (q : Fin 256), y = ix2 p q := ⟨y 0, y 1, eq_ix2 y⟩
  obtain ⟨-, -, -, -, -, -, e0, e1, -, -, -, -⟩ := idx_tiled t
  have hP : 256 * t.val + p.val < 32768 := by have h1 := t.isLt; have h2 := p.isLt; have hN : cfg0.N = 128 := N_0; omega
  rw [View.read_apply]
  have hemb : ((View.whole main_v14_0).slice ((win0 17).rect t)).emb (ix2 p q)
      = ix2 (⟨256 * t.val + p.val, hP⟩ : Fin 32768) q := by
    funext a
    apply Fin.ext
    match a with
    | ⟨0, _⟩ => show win0_17.index t 0 * 256 + 1 * p.val = 256 * t.val + p.val; rw [e0]; omega
    | ⟨1, _⟩ => show win0_17.index t 1 * 256 + 1 * q.val = q.val; rw [e1]; omega
  rw [hemb]
  exact blk_coarse_at m c t p q ⟨256 * t.val + p.val, hP⟩ rfl

/-- Point `t` writes back block `t` of the fine output array. -/
theorem flushed18_eq (c : Dev nD) (t : Fin cfg0.N) :
    (dats m 0 c).flushed 18 t = ((cfg0.win 18).blk t).view.read (Elt Ideal) (Gfine (A0 m c) (A1 m c) (A2 m c) (A3 m c) (A4 m c) (A5 m c) (A10 m c) (A11 m c) (A12 m c) (A13 m c) (A14 m c) (A15 m c) (A16 m c)) := by
  rw [Value.flushed18]
  unfold out0_18
  rw [View.canon_unit_zero hz]
  simp only [View.ld_unit_zero (S := S256x2) hz, View.ld_unit_zero (S := S256x896) hz, View.ld_unit_zero (S := S256x1) hz, View.ld_unit_zero (S := S896x2688) hz, View.ld_unit_zero (S := S2x1344) hz, View.ld_unit_zero (S := S3x1344) hz, View.ld_unit_zero (S := S1x896) hz, View.ld_unit_zero (S := S448x448) hz, View.ld_unit_zero (S := S1x448) hz, View.ld_unit_zero (S := S448x256) hz, View.ld_unit_zero (S := S1x256) hz]
  funext y
  obtain ⟨p, q, rfl⟩ : ∃ (p : Fin 256) (q : Fin 256), y = ix2 p q := ⟨y 0, y 1, eq_ix2 y⟩
  obtain ⟨-, -, -, -, -, -, -, -, e0, e1, -, -⟩ := idx_tiled t
  have hP : 256 * t.val + p.val < 32768 := by have h1 := t.isLt; have h2 := p.isLt; have hN : cfg0.N = 128 := N_0; omega
  rw [View.read_apply]
  have hemb : ((View.whole main_v14_1).slice ((win0 18).rect t)).emb (ix2 p q)
      = ix2 (⟨256 * t.val + p.val, hP⟩ : Fin 32768) q := by
    funext a
    apply Fin.ext
    match a with
    | ⟨0, _⟩ => show win0_18.index t 0 * 256 + 1 * p.val = 256 * t.val + p.val; rw [e0]; omega
    | ⟨1, _⟩ => show win0_18.index t 1 * 256 + 1 * q.val = q.val; rw [e1]; omega
  rw [hemb]
  exact blk_fine_at m c t p q ⟨256 * t.val + p.val, hP⟩ rfl

/-! ## The arrays after the run -/

/-- The hidden-state array ends holding the array of the hidden-state rows. -/
theorem final19 (c : Dev nD) : (dats m 0 c).arrAt 19 cfg0.N = Ghid (A0 m c) (A1 m c) (A2 m c) (A3 m c) (A4 m c) (A5 m c) (A14 m c) (A15 m c) (A16 m c) :=
  (dats m 0 c).arrAt_eq_of_cover 19 (Ghid (A0 m c) (A1 m c) (A2 m c) (A3 m c) (A4 m c) (A5 m c) (A14 m c) (A15 m c) (A16 m c)) (fun t _ => flushed19_eq m c t) (cover19 c)

/-- The coarse output array ends holding the array of the first perceptron's rows. -/
theorem final17 (c : Dev nD) : (dats m 0 c).arrAt 17 cfg0.N = Gcoarse (A0 m c) (A1 m c) (A2 m c) (A3 m c) (A4 m c) (A5 m c) (A6 m c) (A7 m c) (A8 m c) (A9 m c) (A14 m c) (A15 m c) (A16 m c) :=
  (dats m 0 c).arrAt_eq_of_cover 17 (Gcoarse (A0 m c) (A1 m c) (A2 m c) (A3 m c) (A4 m c) (A5 m c) (A6 m c) (A7 m c) (A8 m c) (A9 m c) (A14 m c) (A15 m c) (A16 m c)) (fun t _ => flushed17_eq m c t) (cover17 c)

/-- The fine output array ends holding the array of the second perceptron's rows. -/
theorem final18 (c : Dev nD) : (dats m 0 c).arrAt 18 cfg0.N = Gfine (A0 m c) (A1 m c) (A2 m c) (A3 m c) (A4 m c) (A5 m c) (A10 m c) (A11 m c) (A12 m c) (A13 m c) (A14 m c) (A15 m c) (A16 m c) :=
  (dats m 0 c).arrAt_eq_of_cover 18 (Gfine (A0 m c) (A1 m c) (A2 m c) (A3 m c) (A4 m c) (A5 m c) (A10 m c) (A11 m c) (A12 m c) (A13 m c) (A14 m c) (A15 m c) (A16 m c)) (fun t _ => flushed18_eq m c t) (cover18 c)

/-- The kernel's run, read: every weakly fair execution ends with the three result arrays at the array-level functions
    of the arguments, and the arguments unchanged. -/
theorem run : θ_run defs (onTc (τ := τ) (main (F := Ideal))) ⟨m, fun _ => 0, ρ⟩ fun r => ∀ c : Dev nD,
      r.2.mem ((c : Thread nD τ).loc main_v14_0) = Gcoarse (A0 m c) (A1 m c) (A2 m c) (A3 m c) (A4 m c) (A5 m c) (A6 m c) (A7 m c) (A8 m c) (A9 m c) (A14 m c) (A15 m c) (A16 m c)
      ∧ r.2.mem ((c : Thread nD τ).loc main_v14_1) = Gfine (A0 m c) (A1 m c) (A2 m c) (A3 m c) (A4 m c) (A5 m c) (A10 m c) (A11 m c) (A12 m c) (A13 m c) (A14 m c) (A15 m c) (A16 m c)
      ∧ r.2.mem ((c : Thread nD τ).loc main_v14_2) = Ghid (A0 m c) (A1 m c) (A2 m c) (A3 m c) (A4 m c) (A5 m c) (A14 m c) (A15 m c) (A16 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final17 m c), (h c).2.1.trans (final18 m c),
      (h c).2.2.1.trans (final19 m c), (h c).2.2.2⟩)
    (Value.run_blocks m ρ)

end Cert.GruRows.Blk

end
-- ==== Proof.RefHidden.lean ====
/-
  The reference's new hidden state, read one entry at a time.

  The reference computes, on whole arrays of 32768 rows, the recurrent product `h · WR`, the two input projections
  `y · WIc` and `(y, cc) · WIf`, slices each into its three groups of columns, joins the groups of the two projections
  side by side, and forms the gates `u`, `r`, the candidate `e` and `h' = u · h + (1 − u) · e` entry by entry. Every one
  of these operations, read at row `p`, column `q`, looks at row `p` of the batched arguments only: a product of two
  matrices at `(p, j)` is the row `p` of the left factor times column `j` of the right one; a slice shifts the column; a
  join of two blocks of columns picks the block by the column; a bias is broadcast along the rows. Chaining these
  readings gives the row function of the specification.

  The sigmoid is spelled `1.0 / (1.0 + exp (−t))` with the word `0x3F800000` for `1.0`; that word is the number one,
  which makes the expression the library's `Ideal.logistic t`. The `1.0` of `1 − u` is left as the word.
-/
import proofs.«168580_j37495064494155_1_alg».proof.Proof.Gen.ReferenceIdeal.Read
import proofs.«168580_j37495064494155_1_alg».proof.Proof.RowSpec

noncomputable section

open scoped BigOperators

namespace Cert.GruRows.Ref

open Cert.ReferenceIdeal Cert.ReferenceIdeal.Gen Cert.ReferenceIdeal.Read Idealize.ShloMosaic Idealize.ShloMosaic.TcCoe
open Idealize.ShloMosaic.ValueIdx Cert.GruRows

/-- The word the programs print for `1.0` is the number one. -/
theorem one_word : Ideal.ofBits .f32 0x3F800000#32 = (1 : EReal) := by
  simp [Ideal.ofBits, Ideal.ieee, -EReal.coe_mul]; norm_num

section Joins
variable {α : Type}

/-- Two blocks of 448 columns joined along the columns, at row `p`, column `q`: the left block below column 448,
    the right block, 448 columns less, from there on. -/
theorem join448_at (a b : S32768x448.Idx → α) (p : Fin 32768) (q : Fin 896) :
    concatenate S32768x896 1 [⟨S32768x448, a⟩, ⟨S32768x448, b⟩] concatenates_S32768x448_S32768x448_S32768x896_d1 (ix2 p q)
      = if h : q.val < 448 then a (ix2 p ⟨q.val, h⟩) else b (ix2 p ⟨q.val - 448, by have := q.isLt; omega⟩) := by
  by_cases h : q.val < 448
  · rw [dif_pos h]
    refine concatenate_pair_apply_left (1 : Fin S32768x896.rank) a b _ (ix2 p q) rfl (ix2 p ⟨q.val, h⟩) (fun d => ?_)
    match d with
    | ⟨0, _⟩ => rfl
    | ⟨1, _⟩ => rfl
  · rw [dif_neg h]
    refine concatenate_pair_apply_right (1 : Fin S32768x896.rank) a b _ (ix2 p q) rfl rfl
      (ix2 p ⟨q.val - 448, by have := q.isLt; omega⟩) (fun d hd => ?_) ?_
    · match d with
      | ⟨0, _⟩ => rfl
      | ⟨1, _⟩ => exact absurd rfl hd
    · show (q.val - 448) + 448 = q.val
      omega

/-- A block of two columns and a block of one column joined along the columns, at row `p`, column `k`. -/
theorem join3_at (a : S32768x2.Idx → α) (b : S32768x1.Idx → α) (p : Fin 32768) (k : Fin 3) :
    concatenate S32768x3 1 [⟨S32768x2, a⟩, ⟨S32768x1, b⟩] concatenates_S32768x2_S32768x1_S32768x3_d1 (ix2 p k)
      = if h : k.val < 2 then a (ix2 p ⟨k.val, h⟩) else b (ix2 p 0) := by
  by_cases h : k.val < 2
  · rw [dif_pos h]
    refine concatenate_pair_apply_left (1 : Fin S32768x3.rank) a b _ (ix2 p k) rfl (ix2 p ⟨k.val, h⟩) (fun d => ?_)
    match d with
    | ⟨0, _⟩ => rfl
    | ⟨1, _⟩ => rfl
  · rw [dif_neg h]
    refine concatenate_pair_apply_right (1 : Fin S32768x3.rank) a b _ (ix2 p k) rfl rfl (ix2 p 0) (fun d hd => ?_) ?_
    · match d with
      | ⟨0, _⟩ => rfl
      | ⟨1, _⟩ => exact absurd rfl hd
    · show 0 + 2 = k.val
      have := k.isLt
      omega

end Joins

/-! ### The three products, one entry at a time -/

/-- The recurrent product at `(p, j)`: row `p` of the hidden state times column `j` of the weights. -/
theorem recur_at (x1 : (⟨S32768x896, .f32⟩ : BufTy).Contents (Elt Ideal)) (x3 : (⟨S896x2688, .f32⟩ : BufTy).Contents (Elt Ideal)) (p : Fin 32768) (j : Fin 2688) :
    val_main_v0 (F := Ideal) x1 x3 (ix2 p j) = rowDot (fun k => x1 (ix2 p k)) (fun k a => x3 (ix2 k a)) j := by
  rw [val_main_v0_apply]
  unfold rowDot
  refine Finset.sum_congr rfl fun k _ => ?_
  have el : lidx_main_v0 (ix2 p j) k = ix2 p k := funext fun a => by
    match a with
    | ⟨0, _⟩ => rfl
    | ⟨1, _⟩ => rfl
  have er : ridx_main_v0 (ix2 p j) k = ix2 k j := funext fun a => by
    match a with
    | ⟨0, _⟩ => rfl
    | ⟨1, _⟩ => rfl
  rw [el, er]

/-- The coarse projection at `(p, j)`. -/
theorem coarse_proj_at (x0 : (⟨S32768x2, .f32⟩ : BufTy).Contents (Elt Ideal)) (x4 : (⟨S2x1344, .f32⟩ : BufTy).Contents (Elt Ideal)) (p : Fin 32768) (j : Fin 1344) :
    val_main_v4 (F := Ideal) x0 x4 (ix2 p j) = rowDot (fun k => x0 (ix2 p k)) (fun k a => x4 (ix2 k a)) j := by
  rw [val_main_v4_apply]
  unfold rowDot
  refine Finset.sum_congr rfl fun k _ => ?_
  have el : lidx_main_v4 (ix2 p j) k = ix2 p k := funext fun a => by
    match a with
    | ⟨0, _⟩ => rfl
    | ⟨1, _⟩ => rfl
  have er : ridx_main_v4 (ix2 p j) k = ix2 k j := funext fun a => by
    match a with
    | ⟨0, _⟩ => rfl
    | ⟨1, _⟩ => rfl
  rw [el, er]

/-- The joined input `(y, cc)` at `(p, k)`. -/
theorem fine_in_at (x0 : (⟨S32768x2, .f32⟩ : BufTy).Contents (Elt Ideal)) (x2 : (⟨S32768x1, .f32⟩ : BufTy).Contents (Elt Ideal)) (p : Fin 32768) (k : Fin 3) :
    val_main_v8 (F := Ideal) x0 x2 (ix2 p k) = fineIn (fun k => x0 (ix2 p k)) (x2 (ix2 p 0)) k := by
  unfold val_main_v8
  rw [join3_at]
  rfl

/-- The fine projection at `(p, j)`. -/
theorem fine_proj_at (x0 : (⟨S32768x2, .f32⟩ : BufTy).Contents (Elt Ideal)) (x2 : (⟨S32768x1, .f32⟩ : BufTy).Contents (Elt Ideal)) (x5 : (⟨S3x1344, .f32⟩ : BufTy).Contents (Elt Ideal)) (p : Fin 32768) (j : Fin 1344) :
    val_main_v9 (F := Ideal) x0 x2 x5 (ix2 p j) = rowDot (fineIn (fun k => x0 (ix2 p k)) (x2 (ix2 p 0))) (fun k a => x5 (ix2 k a)) j := by
  rw [val_main_v9_apply]
  unfold rowDot
  refine Finset.sum_congr rfl fun k _ => ?_
  have el : lidx_main_v9 (ix2 p j) k = ix2 p k := funext fun a => by
    match a with
    | ⟨0, _⟩ => rfl
    | ⟨1, _⟩ => rfl
  have er : ridx_main_v9 (ix2 p j) k = ix2 k j := funext fun a => by
    match a with
    | ⟨0, _⟩ => rfl
    | ⟨1, _⟩ => rfl
  rw [el, er, fine_in_at]

/-! ### The column groups -/

/-- The update gate's group of the recurrent product: columns `0 … 895`. -/
theorem recur_u_at (x1 : (⟨S32768x896, .f32⟩ : BufTy).Contents (Elt Ideal)) (x3 : (⟨S896x2688, .f32⟩ : BufTy).Contents (Elt Ideal)) (p : Fin 32768) (k : Fin 896) (j : Fin 2688) (hj : j.val = k.val) :
    val_main_v1 (F := Ideal) x1 x3 (ix2 p k) = rowDot (fun k => x1 (ix2 p k)) (fun k a => x3 (ix2 k a)) j := by
  rw [val_main_v1_apply, ← recur_at]
  congr 1
  funext a
  match a with
  | ⟨0, _⟩ => rfl
  | ⟨1, _⟩ => exact Fin.ext hj.symm

/-- The reset gate's group of the recurrent product: columns `896 … 1791`. -/
theorem recur_r_at (x1 : (⟨S32768x896, .f32⟩ : BufTy).Contents (Elt Ideal)) (x3 : (⟨S896x2688, .f32⟩ : BufTy).Contents (Elt Ideal)) (p : Fin 32768) (k : Fin 896) (j : Fin 2688) (hj : j.val = 896 + k.val) :
    val_main_v2 (F := Ideal) x1 x3 (ix2 p k) = rowDot (fun k => x1 (ix2 p k)) (fun k a => x3 (ix2 k a)) j := by
  rw [val_main_v2_apply, ← recur_at]
  congr 1
  funext a
  match a with
  | ⟨0, _⟩ => rfl
  | ⟨1, _⟩ => exact Fin.ext hj.symm

/-- The candidate's group of the recurrent product: columns `1792 … 2687`. -/
theorem recur_e_at (x1 : (⟨S32768x896, .f32⟩ : BufTy).Contents (Elt Ideal)) (x3 : (⟨S896x2688, .f32⟩ : BufTy).Contents (Elt Ideal)) (p : Fin 32768) (k : Fin 896) (j : Fin 2688) (hj : j.val = 1792 + k.val) :
    val_main_v3 (F := Ideal) x1 x3 (ix2 p k) = rowDot (fun k => x1 (ix2 p k)) (fun k a => x3 (ix2 k a)) j := by
  rw [val_main_v3_apply, ← recur_at]
  congr 1
  funext a
  match a with
  | ⟨0, _⟩ => rfl
  | ⟨1, _⟩ => exact Fin.ext hj.symm

/-- The coarse projection's first group of columns. -/
theorem coarse_u_at (x0 : (⟨S32768x2, .f32⟩ : BufTy).Contents (Elt Ideal)) (x4 : (⟨S2x1344, .f32⟩ : BufTy).Contents (Elt Ideal)) (p : Fin 32768) (k : Fin 448) (j : Fin 1344) (hj : j.val = k.val) :
    val_main_v5 (F := Ideal) x0 x4 (ix2 p k) = rowDot (fun k => x0 (ix2 p k)) (fun k a => x4 (ix2 k a)) j := by
  rw [val_main_v5_apply, ← coarse_proj_at]
  congr 1
  funext a
  match a with
  | ⟨0, _⟩ => rfl
  | ⟨1, _⟩ => exact Fin.ext hj.symm

/-- The coarse projection's second group of columns. -/
theorem coarse_r_at (x0 : (⟨S32768x2, .f32⟩ : BufTy).Contents (Elt Ideal)) (x4 : (⟨S2x1344, .f32⟩ : BufTy).Contents (Elt Ideal)) (p : Fin 32768) (k : Fin 448) (j : Fin 1344) (hj : j.val = 448 + k.val) :
    val_main_v6 (F := Ideal) x0 x4 (ix2 p k) = rowDot (fun k => x0 (ix2 p k)) (fun k a => x4 (ix2 k a)) j := by
  rw [val_main_v6_apply, ← coarse_proj_at]
  congr 1
  funext a
  match a with
  | ⟨0, _⟩ => rfl
  | ⟨1, _⟩ => exact Fin.ext hj.symm

/-- The coarse projection's third group of columns. -/
theorem coarse_e_at (x0 : (⟨S32768x2, .f32⟩ : BufTy).Contents (Elt Ideal)) (x4 : (⟨S2x1344, .f32⟩ : BufTy).Contents (Elt Ideal)) (p : Fin 32768) (k : Fin 448) (j : Fin 1344) (hj : j.val = 896 + k.val) :
    val_main_v7 (F := Ideal) x0 x4 (ix2 p k) = rowDot (fun k => x0 (ix2 p k)) (fun k a => x4 (ix2 k a)) j := by
  rw [val_main_v7_apply, ← coarse_proj_at]
  congr 1
  funext a
  match a with
  | ⟨0, _⟩ => rfl
  | ⟨1, _⟩ => exact Fin.ext hj.symm

/-- The fine projection's first group of columns. -/
theorem fine_u_at (x0 : (⟨S32768x2, .f32⟩ : BufTy).Contents (Elt Ideal)) (x2 : (⟨S32768x1, .f32⟩ : BufTy).Contents (Elt Ideal)) (x5 : (⟨S3x1344, .f32⟩ : BufTy).Contents (Elt Ideal)) (p : Fin 32768) (k : Fin 448) (j : Fin 1344) (hj : j.val = k.val) :
    val_main_v10 (F := Ideal) x0 x2 x5 (ix2 p k) = rowDot (fineIn (fun k => x0 (ix2 p k)) (x2 (ix2 p 0))) (fun k a => x5 (ix2 k a)) j := by
  rw [val_main_v10_apply, ← fine_proj_at]
  congr 1
  funext a
  match a with
  | ⟨0, _⟩ => rfl
  | ⟨1, _⟩ => exact Fin.ext hj.symm

/-- The fine projection's second group of columns. -/
theorem fine_r_at (x0 : (⟨S32768x2, .f32⟩ : BufTy).Contents (Elt Ideal)) (x2 : (⟨S32768x1, .f32⟩ : BufTy).Contents (Elt Ideal)) (x5 : (⟨S3x1344, .f32⟩ : BufTy).Contents (Elt Ideal)) (p : Fin 32768) (k : Fin 448) (j : Fin 1344) (hj : j.val = 448 + k.val) :
    val_main_v11 (F := Ideal) x0 x2 x5 (ix2 p k) = rowDot (fineIn (fun k => x0 (ix2 p k)) (x2 (ix2 p 0))) (fun k a => x5 (ix2 k a)) j := by
  rw [val_main_v11_apply, ← fine_proj_at]
  congr 1
  funext a
  match a with
  | ⟨0, _⟩ => rfl
  | ⟨1, _⟩ => exact Fin.ext hj.symm

/-- The fine projection's third group of columns. -/
theorem fine_e_at (x0 : (⟨S32768x2, .f32⟩ : BufTy).Contents (Elt Ideal)) (x2 : (⟨S32768x1, .f32⟩ : BufTy).Contents (Elt Ideal)) (x5 : (⟨S3x1344, .f32⟩ : BufTy).Contents (Elt Ideal)) (p : Fin 32768) (k : Fin 448) (j : Fin 1344) (hj : j.val = 896 + k.val) :
    val_main_v12 (F := Ideal) x0 x2 x5 (ix2 p k) = rowDot (fineIn (fun k => x0 (ix2 p k)) (x2 (ix2 p 0))) (fun k a => x5 (ix2 k a)) j := by
  rw [val_main_v12_apply, ← fine_proj_at]
  congr 1
  funext a
  match a with
  | ⟨0, _⟩ => rfl
  | ⟨1, _⟩ => exact Fin.ext hj.symm

/-! ### The input projections of the three gates -/

/-- The update gate's input projection: the first groups of the two projections side by side. -/
theorem proj_u_at (x0 : (⟨S32768x2, .f32⟩ : BufTy).Contents (Elt Ideal)) (x2 : (⟨S32768x1, .f32⟩ : BufTy).Contents (Elt Ideal)) (x4 : (⟨S2x1344, .f32⟩ : BufTy).Contents (Elt Ideal)) (x5 : (⟨S3x1344, .f32⟩ : BufTy).Contents (Elt Ideal)) (p : Fin 32768) (q : Fin 896) :
    val_main_v13 (F := Ideal) x0 x2 x4 x5 (ix2 p q) = inProj (fun k => x0 (ix2 p k)) (x2 (ix2 p 0)) (fun k a => x4 (ix2 k a)) (fun k a => x5 (ix2 k a)) 0 (by omega) q := by
  unfold val_main_v13
  rw [join448_at]
  unfold inProj sideBySide
  by_cases h : q.val < 448
  · rw [dif_pos h, dif_pos h]
    exact coarse_u_at x0 x4 p _ _ (Nat.zero_add _)
  · rw [dif_neg h, dif_neg h]
    exact fine_u_at x0 x2 x5 p _ _ (Nat.zero_add _)

/-- The reset gate's input projection: the second groups side by side. -/
theorem proj_r_at (x0 : (⟨S32768x2, .f32⟩ : BufTy).Contents (Elt Ideal)) (x2 : (⟨S32768x1, .f32⟩ : BufTy).Contents (Elt Ideal)) (x4 : (⟨S2x1344, .f32⟩ : BufTy).Contents (Elt Ideal)) (x5 : (⟨S3x1344, .f32⟩ : BufTy).Contents (Elt Ideal)) (p : Fin 32768) (q : Fin 896) :
    val_main_v14 (F := Ideal) x0 x2 x4 x5 (ix2 p q) = inProj (fun k => x0 (ix2 p k)) (x2 (ix2 p 0)) (fun k a => x4 (ix2 k a)) (fun k a => x5 (ix2 k a)) 448 (by omega) q := by
  unfold val_main_v14
  rw [join448_at]
  unfold inProj sideBySide
  by_cases h : q.val < 448
  · rw [dif_pos h, dif_pos h]
    exact coarse_r_at x0 x4 p _ _ rfl
  · rw [dif_neg h, dif_neg h]
    exact fine_r_at x0 x2 x5 p _ _ rfl

/-- The candidate's input projection: the third groups side by side. -/
theorem proj_e_at (x0 : (⟨S32768x2, .f32⟩ : BufTy).Contents (Elt Ideal)) (x2 : (⟨S32768x1, .f32⟩ : BufTy).Contents (Elt Ideal)) (x4 : (⟨S2x1344, .f32⟩ : BufTy).Contents (Elt Ideal)) (x5 : (⟨S3x1344, .f32⟩ : BufTy).Contents (Elt Ideal)) (p : Fin 32768) (q : Fin 896) :
    val_main_v15 (F := Ideal) x0 x2 x4 x5 (ix2 p q) = inProj (fun k => x0 (ix2 p k)) (x2 (ix2 p 0)) (fun k a => x4 (ix2 k a)) (fun k a => x5 (ix2 k a)) 896 (by omega) q := by
  unfold val_main_v15
  rw [join448_at]
  unfold inProj sideBySide
  by_cases h : q.val < 448
  · rw [dif_pos h, dif_pos h]
    exact coarse_e_at x0 x4 p _ _ rfl
  · rw [dif_neg h, dif_neg h]
    exact fine_e_at x0 x2 x5 p _ _ rfl

/-! ### The biases, broadcast along the rows -/

/-- The update gate's bias at `(p, q)` is its entry `q`. -/
theorem bias_u_at (x14 : (⟨S896, .f32⟩ : BufTy).Contents (Elt Ideal)) (p : Fin 32768) (q : Fin 896) :
    val_main_v18 (F := Ideal) x14 (ix2 p q) = x14 (ix1 q) := by
  rw [val_main_v18_apply, val_main_v17_apply]
  congr 1
  funext a
  match a with
  | ⟨0, _⟩ => rfl

/-- The reset gate's bias at `(p, q)` is its entry `q`. -/
theorem bias_r_at (x15 : (⟨S896, .f32⟩ : BufTy).Contents (Elt Ideal)) (p : Fin 32768) (q : Fin 896) :
    val_main_v28 (F := Ideal) x15 (ix2 p q) = x15 (ix1 q) := by
  rw [val_main_v28_apply, val_main_v27_apply]
  congr 1
  funext a
  match a with
  | ⟨0, _⟩ => rfl

/-- The candidate's bias at `(p, q)` is its entry `q`. -/
theorem bias_e_at (x16 : (⟨S896, .f32⟩ : BufTy).Contents (Elt Ideal)) (p : Fin 32768) (q : Fin 896) :
    val_main_v39 (F := Ideal) x16 (ix2 p q) = x16 (ix1 q) := by
  rw [val_main_v39_apply, val_main_v38_apply]
  congr 1
  funext a
  match a with
  | ⟨0, _⟩ => rfl

/-! ### The gates, the candidate and the new state -/

/-- The update gate at `(p, q)`. -/
theorem gate_u_at (x0 : (⟨S32768x2, .f32⟩ : BufTy).Contents (Elt Ideal)) (x1 : (⟨S32768x896, .f32⟩ : BufTy).Contents (Elt Ideal)) (x2 : (⟨S32768x1, .f32⟩ : BufTy).Contents (Elt Ideal)) (x3 : (⟨S896x2688, .f32⟩ : BufTy).Contents (Elt Ideal)) (x4 : (⟨S2x1344, .f32⟩ : BufTy).Contents (Elt Ideal)) (x5 : (⟨S3x1344, .f32⟩ : BufTy).Contents (Elt Ideal)) (x14 : (⟨S896, .f32⟩ : BufTy).Contents (Elt Ideal)) (p : Fin 32768) (q : Fin 896) :
    val_main_v25 (F := Ideal) x0 x1 x2 x3 x4 x5 x14 (ix2 p q)
      = gateU (fun k => x0 (ix2 p k)) (fun k => x1 (ix2 p k)) (x2 (ix2 p 0)) (fun k a => x3 (ix2 k a)) (fun k a => x4 (ix2 k a)) (fun k a => x5 (ix2 k a)) (fun a => x14 (ix1 a)) q := by
  rw [val_main_v25_apply, val_main_v24_apply, val_main_cst_0_apply, val_main_v23_apply, val_main_v22_apply,
    val_main_cst_apply, val_main_v21_apply, val_main_v20_apply, val_main_v19_apply, val_main_v16_apply,
    bias_u_at, proj_u_at, recur_u_at x1 x3 p q ⟨q.val, by have := q.isLt; omega⟩ rfl]
  simp only [Ideal.ofBits_def, Ideal.addf_def, Ideal.hostDivf_def, Ideal.hostNegf_def, Ideal.hostUnary_exp_def, one_word]
  rfl

/-- The reset gate at `(p, q)`. -/
theorem gate_r_at (x0 : (⟨S32768x2, .f32⟩ : BufTy).Contents (Elt Ideal)) (x1 : (⟨S32768x896, .f32⟩ : BufTy).Contents (Elt Ideal)) (x2 : (⟨S32768x1, .f32⟩ : BufTy).Contents (Elt Ideal)) (x3 : (⟨S896x2688, .f32⟩ : BufTy).Contents (Elt Ideal)) (x4 : (⟨S2x1344, .f32⟩ : BufTy).Contents (Elt Ideal)) (x5 : (⟨S3x1344, .f32⟩ : BufTy).Contents (Elt Ideal)) (x15 : (⟨S896, .f32⟩ : BufTy).Contents (Elt Ideal)) (p : Fin 32768) (q : Fin 896) :
    val_main_v35 (F := Ideal) x0 x1 x2 x3 x4 x5 x15 (ix2 p q)
      = gateR (fun k => x0 (ix2 p k)) (fun k => x1 (ix2 p k)) (x2 (ix2 p 0)) (fun k a => x3 (ix2 k a)) (fun k a => x4 (ix2 k a)) (fun k a => x5 (ix2 k a)) (fun a => x15 (ix1 a)) q := by
  rw [val_main_v35_apply, val_main_v34_apply, val_main_cst_2_apply, val_main_v33_apply, val_main_v32_apply,
    val_main_cst_1_apply, val_main_v31_apply, val_main_v30_apply, val_main_v29_apply, val_main_v26_apply,
    bias_r_at, proj_r_at, recur_r_at x1 x3 p q ⟨896 + q.val, by have := q.isLt; omega⟩ rfl]
  simp only [Ideal.ofBits_def, Ideal.addf_def, Ideal.hostDivf_def, Ideal.hostNegf_def, Ideal.hostUnary_exp_def, one_word]
  rfl

/-- The candidate state at `(p, q)`. -/
theorem cand_at (x0 : (⟨S32768x2, .f32⟩ : BufTy).Contents (Elt Ideal)) (x1 : (⟨S32768x896, .f32⟩ : BufTy).Contents (Elt Ideal)) (x2 : (⟨S32768x1, .f32⟩ : BufTy).Contents (Elt Ideal)) (x3 : (⟨S896x2688, .f32⟩ : BufTy).Contents (Elt Ideal)) (x4 : (⟨S2x1344, .f32⟩ : BufTy).Contents (Elt Ideal)) (x5 : (⟨S3x1344, .f32⟩ : BufTy).Contents (Elt Ideal)) (x15 : (⟨S896, .f32⟩ : BufTy).Contents (Elt Ideal)) (x16 : (⟨S896, .f32⟩ : BufTy).Contents (Elt Ideal)) (p : Fin 32768) (q : Fin 896) :
    val_main_v41 (F := Ideal) x0 x1 x2 x3 x4 x5 x15 x16 (ix2 p q)
      = cand (fun k => x0 (ix2 p k)) (fun k => x1 (ix2 p k)) (x2 (ix2 p 0)) (fun k a => x3 (ix2 k a)) (fun k a => x4 (ix2 k a)) (fun k a => x5 (ix2 k a)) (fun a => x15 (ix1 a)) (fun a => x16 (ix1 a)) q := by
  rw [val_main_v41_apply, val_main_v40_apply, val_main_v37_apply, val_main_v36_apply, gate_r_at,
    bias_e_at, proj_e_at, recur_e_at x1 x3 p q ⟨1792 + q.val, by have := q.isLt; omega⟩ rfl]
  simp only [Ideal.addf_def, Ideal.mulf_def, Ideal.hostUnary_tanh_def]
  rfl

/-- The reference's new hidden state at row `p`, column `q`, is the row function of row `p` of its three batched
    arguments and of the whole weights. -/
theorem hidden_at (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal)) (x14 x15 x16 : (⟨S896, .f32⟩ : BufTy).Contents (Elt Ideal))
    (p : Fin 32768) (q : Fin 896) :
    val_main_v46 (F := Ideal) x0 x1 x2 x3 x4 x5 x14 x15 x16 (ix2 p q)
      = hiddenRow (fun k => x0 (ix2 p k)) (fun k => x1 (ix2 p k)) (x2 (ix2 p 0))
          (fun k a => x3 (ix2 k a)) (fun k a => x4 (ix2 k a)) (fun k a => x5 (ix2 k a))
          (fun a => x14 (ix1 a)) (fun a => x15 (ix1 a)) (fun a => x16 (ix1 a)) q := by
  rw [val_main_v46_apply, val_main_v45_apply, val_main_v44_apply, val_main_v43_apply, val_main_cst_3_apply,
    val_main_v42_apply, cand_at, gate_u_at]
  simp only [Ideal.ofBits_def, Ideal.addf_def, Ideal.subf_def, Ideal.mulf_def]
  rfl

end Cert.GruRows.Ref

end
-- ==== Proof.RefMlp.lean ====
/-
  The reference's two perceptron outputs, read one entry at a time.

  Each output takes one half (448 columns) of the reference's hidden state, multiplies it by a weight matrix, adds a bias
  broadcast along the rows, takes the maximum with zero, multiplies by a second weight matrix and adds a second bias. Read
  at row `p`, column `j`, every one of these operations looks at row `p` only: a product at `(p, j)` is row `p` of the left
  factor times column `j` of the right one, a slice shifts the column, a broadcast bias is read at its column. So row `p`
  of an output is the perceptron of the corresponding half of row `p` of the hidden state.
-/
import proofs.«168580_j37495064494155_1_alg».proof.Proof.Gen.ReferenceIdeal.Read
import proofs.«168580_j37495064494155_1_alg».proof.Proof.RowSpec

noncomputable section

open scoped BigOperators

namespace Cert.GruRows.Ref

open Cert.ReferenceIdeal Cert.ReferenceIdeal.Gen Cert.ReferenceIdeal.Read Idealize.ShloMosaic Idealize.ShloMosaic.TcCoe
open Idealize.ShloMosaic.ValueIdx Cert.GruRows

/-! ## The index maps of the printed operations, at an index given by its coordinates

Each printed layout operation and each matrix product reads its operands at an index computed from the result's index.
At a result index `ix2 p j` these are again indices given by coordinates. -/

/-- The first matrix product reads row `p` of its left operand. -/
theorem lidx_hidden (p : Fin 32768) (k k' : Fin 448) : lidx_main_v49 (ix2 p k) k' = ix2 p k' :=
  funext fun a => by match a with | ⟨0, _⟩ => rfl | ⟨1, _⟩ => rfl

/-- The first matrix product reads column `k` of its right operand. -/
theorem ridx_hidden (p : Fin 32768) (k k' : Fin 448) : ridx_main_v49 (ix2 p k) k' = ix2 k' k :=
  funext fun a => by match a with | ⟨0, _⟩ => rfl | ⟨1, _⟩ => rfl

/-- The second matrix product reads row `p` of its left operand. -/
theorem lidx_out (p : Fin 32768) (j : Fin 256) (k : Fin 448) : lidx_main_v54 (ix2 p j) k = ix2 p k :=
  funext fun a => by match a with | ⟨0, _⟩ => rfl | ⟨1, _⟩ => rfl

/-- The second matrix product reads column `j` of its right operand. -/
theorem ridx_out (p : Fin 32768) (j : Fin 256) (k : Fin 448) : ridx_main_v54 (ix2 p j) k = ix2 k j :=
  funext fun a => by match a with | ⟨0, _⟩ => rfl | ⟨1, _⟩ => rfl

/-- The first bias, broadcast along the rows, is read at the column. -/
theorem idx_bias1 (p : Fin 32768) (k : Fin 448) : idx_main_v50 (idx_main_v51 (ix2 p k)) = ix1 k :=
  funext fun a => by match a with | ⟨0, _⟩ => rfl

/-- The second bias, broadcast along the rows, is read at the column. -/
theorem idx_bias2 (p : Fin 32768) (j : Fin 256) : idx_main_v55 (idx_main_v56 (ix2 p j)) = ix1 j :=
  funext fun a => by match a with | ⟨0, _⟩ => rfl

/-- Columns `0 … 447` of the hidden state: column `k` of the slice is column `k` of the whole. -/
theorem idx_lo (p : Fin 32768) (k : Fin 448) :
    idx_main_v47 (ix2 p k) = ix2 p (⟨k.val, by have := k.isLt; omega⟩ : Fin 896) :=
  funext fun a => by match a with | ⟨0, _⟩ => rfl | ⟨1, _⟩ => rfl

/-- Columns `448 … 895` of the hidden state: column `k` of the slice is column `448 + k` of the whole. -/
theorem idx_hi (p : Fin 32768) (k : Fin 448) :
    idx_main_v48 (ix2 p k) = ix2 p (⟨448 + k.val, by have := k.isLt; omega⟩ : Fin 896) :=
  funext fun a => by match a with | ⟨0, _⟩ => rfl | ⟨1, _⟩ => rfl

/-- The hidden layer of the coarse perceptron at row `p`, column `k`: the maximum of `x · W1 + b1` and the printed zero. -/
theorem coarse_hidden_at (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x6 : (⟨S448x448, .f32⟩ : BufTy).Contents (Elt Ideal)) (x7 : (⟨S448, .f32⟩ : BufTy).Contents (Elt Ideal))
    (x14 x15 x16 : (⟨S896, .f32⟩ : BufTy).Contents (Elt Ideal)) (p : Fin 32768) (k : Fin 448) :
    val_main_v53 (F := Ideal) x0 x1 x2 x3 x4 x5 x6 x7 x14 x15 x16 (ix2 p k)
      = max (rowDot (loHalf (fun q => val_main_v46 (F := Ideal) x0 x1 x2 x3 x4 x5 x14 x15 x16 (ix2 p q)))
          (fun k a => x6 (ix2 k a)) k + x7 (ix1 k)) zeroWord := by
  rw [val_main_v53_apply, val_main_v52_apply, val_main_v49_apply, val_main_v51_apply, val_main_v50_apply,
    val_main_call0_v0_apply, val_main_call0_cst_apply]
  simp only [Ideal.maximumf_def, Ideal.addf_def, Ideal.ofBits_def, lidx_hidden, ridx_hidden, idx_bias1,
    val_main_v47_apply, idx_lo, rowDot, loHalf, zeroWord]

/-- The reference's coarse output at row `p`, column `j`, is the perceptron of the first half of row `p` of its hidden
    state. -/
theorem coarse_at (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x6 : (⟨S448x448, .f32⟩ : BufTy).Contents (Elt Ideal)) (x7 : (⟨S448, .f32⟩ : BufTy).Contents (Elt Ideal)) (x8 : (⟨S448x256, .f32⟩ : BufTy).Contents (Elt Ideal)) (x9 : (⟨S256, .f32⟩ : BufTy).Contents (Elt Ideal))
    (x14 x15 x16 : (⟨S896, .f32⟩ : BufTy).Contents (Elt Ideal)) (p : Fin 32768) (j : Fin 256) :
    val_main_v57 (F := Ideal) x0 x1 x2 x3 x4 x5 x6 x7 x8 x9 x14 x15 x16 (ix2 p j)
      = mlpRow (loHalf (fun q => val_main_v46 (F := Ideal) x0 x1 x2 x3 x4 x5 x14 x15 x16 (ix2 p q)))
          (fun k a => x6 (ix2 k a)) (fun a => x7 (ix1 a)) (fun k a => x8 (ix2 k a)) (fun a => x9 (ix1 a)) j := by
  rw [val_main_v57_apply, val_main_v54_apply, val_main_v56_apply, val_main_v55_apply]
  simp only [Ideal.addf_def, lidx_out, ridx_out, idx_bias2, coarse_hidden_at, mlpRow, rowDot]

/-- The first matrix product of the fine perceptron reads row `p` of its left operand. -/
theorem lidx_hidden' (p : Fin 32768) (k k' : Fin 448) : lidx_main_v58 (ix2 p k) k' = ix2 p k' :=
  funext fun a => by match a with | ⟨0, _⟩ => rfl | ⟨1, _⟩ => rfl

/-- The first matrix product of the fine perceptron reads column `k` of its right operand. -/
theorem ridx_hidden' (p : Fin 32768) (k k' : Fin 448) : ridx_main_v58 (ix2 p k) k' = ix2 k' k :=
  funext fun a => by match a with | ⟨0, _⟩ => rfl | ⟨1, _⟩ => rfl

/-- The second matrix product of the fine perceptron reads row `p` of its left operand. -/
theorem lidx_out' (p : Fin 32768) (j : Fin 256) (k : Fin 448) : lidx_main_v63 (ix2 p j) k = ix2 p k :=
  funext fun a => by match a with | ⟨0, _⟩ => rfl | ⟨1, _⟩ => rfl

/-- The second matrix product of the fine perceptron reads column `j` of its right operand. -/
theorem ridx_out' (p : Fin 32768) (j : Fin 256) (k : Fin 448) : ridx_main_v63 (ix2 p j) k = ix2 k j :=
  funext fun a => by match a with | ⟨0, _⟩ => rfl | ⟨1, _⟩ => rfl

/-- The fine perceptron's first bias, broadcast along the rows, is read at the column. -/
theorem idx_bias1' (p : Fin 32768) (k : Fin 448) : idx_main_v59 (idx_main_v60 (ix2 p k)) = ix1 k :=
  funext fun a => by match a with | ⟨0, _⟩ => rfl

/-- The fine perceptron's second bias, broadcast along the rows, is read at the column. -/
theorem idx_bias2' (p : Fin 32768) (j : Fin 256) : idx_main_v64 (idx_main_v65 (ix2 p j)) = ix1 j :=
  funext fun a => by match a with | ⟨0, _⟩ => rfl

/-- The hidden layer of the fine perceptron at row `p`, column `k`: the maximum of `x · W1 + b1` and the printed zero. -/
theorem fine_hidden_at (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x10 : (⟨S448x448, .f32⟩ : BufTy).Contents (Elt Ideal)) (x11 : (⟨S448, .f32⟩ : BufTy).Contents (Elt Ideal))
    (x14 x15 x16 : (⟨S896, .f32⟩ : BufTy).Contents (Elt Ideal)) (p : Fin 32768) (k : Fin 448) :
    val_main_v62 (F := Ideal) x0 x1 x2 x3 x4 x5 x10 x11 x14 x15 x16 (ix2 p k)
      = max (rowDot (hiHalf (fun q => val_main_v46 (F := Ideal) x0 x1 x2 x3 x4 x5 x14 x15 x16 (ix2 p q)))
          (fun k a => x10 (ix2 k a)) k + x11 (ix1 k)) zeroWord := by
  rw [val_main_v62_apply, val_main_v61_apply, val_main_v58_apply, val_main_v60_apply, val_main_v59_apply,
    val_main_call1_v0_apply, val_main_call1_cst_apply]
  simp only [Ideal.maximumf_def, Ideal.addf_def, Ideal.ofBits_def, lidx_hidden', ridx_hidden', idx_bias1',
    val_main_v48_apply, idx_hi, rowDot, hiHalf, zeroWord]

/-- The reference's fine output at row `p`, column `j`, is the perceptron of the second half of row `p` of its hidden
    state. -/
theorem fine_at (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x10 : (⟨S448x448, .f32⟩ : BufTy).Contents (Elt Ideal)) (x11 : (⟨S448, .f32⟩ : BufTy).Contents (Elt Ideal)) (x12 : (⟨S448x256, .f32⟩ : BufTy).Contents (Elt Ideal)) (x13 : (⟨S256, .f32⟩ : BufTy).Contents (Elt Ideal))
    (x14 x15 x16 : (⟨S896, .f32⟩ : BufTy).Contents (Elt Ideal)) (p : Fin 32768) (j : Fin 256) :
    val_main_v66 (F := Ideal) x0 x1 x2 x3 x4 x5 x10 x11 x12 x13 x14 x15 x16 (ix2 p j)
      = mlpRow (hiHalf (fun q => val_main_v46 (F := Ideal) x0 x1 x2 x3 x4 x5 x14 x15 x16 (ix2 p q)))
          (fun k a => x10 (ix2 k a)) (fun a => x11 (ix1 a)) (fun k a => x12 (ix2 k a)) (fun a => x13 (ix1 a)) j := by
  rw [val_main_v66_apply, val_main_v63_apply, val_main_v65_apply, val_main_v64_apply]
  simp only [Ideal.addf_def, lidx_out', ridx_out', idx_bias2', fine_hidden_at, mlpRow, rowDot]

end Cert.GruRows.Ref

end
-- ==== Proof.RefArrays.lean ====
/-
  The reference's three results as whole arrays: each is the array-level function of its arguments, because at every
  index `(p, q)` it is the row function of row `p` (the hidden state), or the perceptron of a half of row `p` of the hidden
  state (the two outputs).
-/
import proofs.«168580_j37495064494155_1_alg».proof.Proof.RefHidden
import proofs.«168580_j37495064494155_1_alg».proof.Proof.RefMlp
import proofs.«168580_j37495064494155_1_alg».proof.Proof.ArraySpec

noncomputable section

namespace Cert.GruRows.Ref

open Cert.ReferenceIdeal Cert.ReferenceIdeal.Gen Cert.ReferenceIdeal.Read Idealize.ShloMosaic Idealize.ShloMosaic.TcCoe
open Idealize.ShloMosaic.ValueIdx Cert.GruRows

/-- The reference's hidden state is the array of the hidden-state rows. -/
theorem hidden_eq (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x14 x15 x16 : (⟨S896, .f32⟩ : BufTy).Contents (Elt Ideal)) :
    val_main_v46 (F := Ideal) x0 x1 x2 x3 x4 x5 x14 x15 x16 = Ghid x0 x1 x2 x3 x4 x5 x14 x15 x16 := by
  funext i
  obtain ⟨p, q, rfl⟩ : ∃ (p : Fin 32768) (q : Fin 896), i = ix2 p q := ⟨i 0, i 1, eq_ix2 i⟩
  exact hidden_at x0 x1 x2 x3 x4 x5 x14 x15 x16 p q

/-- The reference's coarse output is the array of the first perceptron's rows. -/
theorem coarse_eq (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x6 : (⟨S448x448, .f32⟩ : BufTy).Contents (Elt Ideal)) (x7 : (⟨S448, .f32⟩ : BufTy).Contents (Elt Ideal)) (x8 : (⟨S448x256, .f32⟩ : BufTy).Contents (Elt Ideal)) (x9 : (⟨S256, .f32⟩ : BufTy).Contents (Elt Ideal))
    (x14 x15 x16 : (⟨S896, .f32⟩ : BufTy).Contents (Elt Ideal)) :
    val_main_v57 (F := Ideal) x0 x1 x2 x3 x4 x5 x6 x7 x8 x9 x14 x15 x16
      = Gcoarse x0 x1 x2 x3 x4 x5 x6 x7 x8 x9 x14 x15 x16 := by
  funext i
  obtain ⟨p, j, rfl⟩ : ∃ (p : Fin 32768) (j : Fin 256), i = ix2 p j := ⟨i 0, i 1, eq_ix2 i⟩
  refine (coarse_at x0 x1 x2 x3 x4 x5 x6 x7 x8 x9 x14 x15 x16 p j).trans ?_
  show _ = coarseAt x0 x1 x2 x3 x4 x5 x6 x7 x8 x9 x14 x15 x16 p j
  unfold coarseAt
  exact mlpRow_congr_all (loHalf_congr fun q => hidden_at x0 x1 x2 x3 x4 x5 x14 x15 x16 p q)
    (fun _ _ => rfl) (fun _ => rfl) (fun _ _ => rfl) (fun _ => rfl) j

/-- The reference's fine output is the array of the second perceptron's rows. -/
theorem fine_eq (x0 : (⟨S32768x2, .f32⟩ : BufTy).Contents (Elt Ideal)) (x1 : (⟨S32768x896, .f32⟩ : BufTy).Contents (Elt Ideal)) (x2 : (⟨S32768x1, .f32⟩ : BufTy).Contents (Elt Ideal))
    (x3 : (⟨S896x2688, .f32⟩ : BufTy).Contents (Elt Ideal)) (x4 : (⟨S2x1344, .f32⟩ : BufTy).Contents (Elt Ideal)) (x5 : (⟨S3x1344, .f32⟩ : BufTy).Contents (Elt Ideal))
    (x10 : (⟨S448x448, .f32⟩ : BufTy).Contents (Elt Ideal)) (x11 : (⟨S448, .f32⟩ : BufTy).Contents (Elt Ideal)) (x12 : (⟨S448x256, .f32⟩ : BufTy).Contents (Elt Ideal)) (x13 : (⟨S256, .f32⟩ : BufTy).Contents (Elt Ideal))
    (x14 x15 x16 : (⟨S896, .f32⟩ : BufTy).Contents (Elt Ideal)) :
    val_main_v66 (F := Ideal) x0 x1 x2 x3 x4 x5 x10 x11 x12 x13 x14 x15 x16
      = Gfine x0 x1 x2 x3 x4 x5 x10 x11 x12 x13 x14 x15 x16 := by
  funext i
  obtain ⟨p, j, rfl⟩ : ∃ (p : Fin 32768) (j : Fin 256), i = ix2 p j := ⟨i 0, i 1, eq_ix2 i⟩
  refine (fine_at x0 x1 x2 x3 x4 x5 x10 x11 x12 x13 x14 x15 x16 p j).trans ?_
  show _ = fineAt x0 x1 x2 x3 x4 x5 x10 x11 x12 x13 x14 x15 x16 p j
  unfold fineAt
  exact mlpRow_congr_all (hiHalf_congr fun q => hidden_at x0 x1 x2 x3 x4 x5 x14 x15 x16 p q)
    (fun _ _ => rfl) (fun _ => rfl) (fun _ _ => rfl) (fun _ => rfl) j

end Cert.GruRows.Ref

end
-- ==== Proof.lean ====
/-
  A gated recurrent step followed by two perceptrons, computed 256 batch rows at a time by a kernel and all at once by
  plain array operations: the two agree on the extended reals.

  Both programs compute, for every batch row p,

    u = σ(R_u + I_u + b_u),  r = σ(R_r + I_r + b_r),  e = tanh(r · R_e + I_e + b_e),  h' = u · h + (1 − u) · e,
    coarse = max(h'[0:448] · W1 + b1, 0) · W2 + b2,      fine = max(h'[448:896] · W3 + b3, 0) · W4 + b4,

  where R = h · W_R and the I's are column groups of two small input projections set side by side (`RowSpec`,
  `ArraySpec`). Row p of every result reads row p of the three batched inputs and the whole weights, so the rows a grid
  point computes from its block of 256 input rows are the same rows of the whole-array result, and the 128 blocks cover
  each result array (`BlockReads`, `Cover`, `Arrays`).

  The two programs spell the same row function differently, and on the extended reals the spellings agree with no
  finiteness assumption on any entry: a matrix product into a zero accumulator is the plain sum of products; a change of
  float format is the identity; the logistic function the kernel applies is, by definition, the quotient
  1 / (1 + exp(−x)) the reference writes out; both apply one hyperbolic tangent and one maximum with zero; and every
  addition and multiplication has its operands in the same order on both sides (`KerHidden`, `KerMlp` for the kernel's
  body, `RefHidden`, `RefMlp`, `RefArrays` for the reference). So the precondition that the inputs are finite is never
  opened.

  The three frame claims are the generated runs: each kernel's frame as generated, the reference's run with its results
  dropped. The idealized kernel is the kernel's own text read on the extended reals (no rewrite was applied), so the
  fourth claim is trivial.
-/
import proofs.«168580_j37495064494155_1_alg».proof.Defs
import proofs.«168580_j37495064494155_1_alg».proof.Proof.Gen.Kernel
import proofs.«168580_j37495064494155_1_alg».proof.Proof.Gen.Kernel.Skeleton
import proofs.«168580_j37495064494155_1_alg».proof.Proof.Gen.Kernel.Launch
import proofs.«168580_j37495064494155_1_alg».proof.Proof.Gen.Kernel.Points
import proofs.«168580_j37495064494155_1_alg».proof.Proof.Gen.Kernel.Frame
import proofs.«168580_j37495064494155_1_alg».proof.Proof.Gen.KernelIdeal
import proofs.«168580_j37495064494155_1_alg».proof.Proof.Gen.KernelIdeal.Skeleton
import proofs.«168580_j37495064494155_1_alg».proof.Proof.Gen.KernelIdeal.Launch
import proofs.«168580_j37495064494155_1_alg».proof.Proof.Gen.KernelIdeal.Points
import proofs.«168580_j37495064494155_1_alg».proof.Proof.Gen.KernelIdeal.Frame
import proofs.«168580_j37495064494155_1_alg».proof.Proof.Gen.ReferenceIdeal
import proofs.«168580_j37495064494155_1_alg».proof.Proof.Gen.Pre_finite_inputs
import proofs.«168580_j37495064494155_1_alg».proof.Proof.Gen.KernelIdeal.Value
import proofs.«168580_j37495064494155_1_alg».proof.Proof.Gen.ReferenceIdeal.Run
import proofs.«168580_j37495064494155_1_alg».proof.Proof.Gen.ReferenceIdeal.Read
import proofs.«168580_j37495064494155_1_alg».proof.Proof.Arrays
import proofs.«168580_j37495064494155_1_alg».proof.Proof.RefArrays
import Idealize.ShloMosaic.Adequacy
import Idealize.ShloMosaic.Init

noncomputable section

namespace Cert.Proof

open Idealize.ShloMosaic Idealize.SL.Sem Cert.GruRows

/-- The kernel as printed runs and leaves its arguments unchanged: its generated frame. -/
theorem frame_kernel [Cert.Kernel.Facts] [Cert.Pre_finite_inputs.Facts] : Cert.frame_Kernel :=
  fun m ρ _ => Cert.Kernel.Gen.frame m ρ

/-- The kernel read on the extended reals runs and leaves its arguments unchanged: its generated frame. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its generated run with the three results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- From memories that agree on the arguments, the kernel's three result arrays (the blocks its grid points wrote back)
    and the reference's three results are the same array-level functions of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, Cert.GruRows.Blk.run m ρ, ?_⟩
  refine (θ_run Cert.ReferenceIdeal.defs _ _).mono (fun _ h c => ?_) (Cert.ReferenceIdeal.Value.run (F := Ideal) m' ρ')
  obtain ⟨h57, h66, h46, hargs⟩ := h c
  obtain ⟨g0, g1, g2, g3, g4, g5, g6, g7, g8, g9, g10, g11, g12, g13, g14, g15, g16⟩ := hagree c
  refine ⟨?_, ?_, ?_, hargs⟩
  · rw [h57, Cert.ReferenceIdeal.Read.val_main_v57_eq, Cert.GruRows.Ref.coarse_eq,
      g0, g1, g2, g3, g4, g5, g6, g7, g8, g9, g14, g15, g16]
  · rw [h66, Cert.ReferenceIdeal.Read.val_main_v66_eq, Cert.GruRows.Ref.fine_eq,
      g0, g1, g2, g3, g4, g5, g10, g11, g12, g13, g14, g15, g16]
  · rw [h46, Cert.ReferenceIdeal.Read.val_main_v46_eq, Cert.GruRows.Ref.hidden_eq,
      g0, g1, g2, g3, g4, g5, g14, g15, g16]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
